-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S2000x256 .f32 .bf16
  ∧ IdealRules.truncf_extf.Statement Cert.KernelIdeal.S256x512 .f32 .bf16
  ∧ IdealRules.truncf_extf.Statement Cert.KernelIdeal.S2000x256 .f32 .bf16
  ∧ IdealRules.truncf_extf.Statement Cert.KernelIdeal.S256x512 .f32 .bf16
  ∧ IdealRules.truncf_extf.Statement Cert.KernelIdeal.S2000x16 .f32 .bf16
  ∧ IdealRules.truncf_extf.Statement Cert.KernelIdeal.S16x512 .f32 .bf16
  ∧ IdealRules.truncf_extf.Statement Cert.KernelIdeal.S2000x512 .f32 .bf16
  ∧ IdealRules.truncf_extf.Statement Cert.KernelIdeal.S512x256 .f32 .bf16
  ∧ IdealRules.truncf_extf.Statement Cert.KernelIdeal.S2000x256 .f32 .bf16
  ∧ IdealRules.truncf_extf.Statement Cert.KernelIdeal.S256x512 .f32 .bf16
  ∧ IdealRules.truncf_extf.Statement Cert.KernelIdeal.S2000x256 .f32 .bf16
  ∧ IdealRules.truncf_extf.Statement Cert.KernelIdeal.S256x512 .f32 .bf16
  ∧ IdealRules.truncf_extf.Statement Cert.KernelIdeal.S2000x512 .f32 .bf16
  ∧ IdealRules.truncf_extf.Statement Cert.KernelIdeal.S512x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000x16 : Shape := ⟨2, ![320000, 16]⟩
abbrev S528x512 : Shape := ⟨2, ![528, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S528x512 : S_.BroadcastsInDim S528x512 (![] : Fin 0 → Fin S528x512.rank)
  reducesTo_S528x512_S_d0_1 : S528x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_arg9 : FVec F S512x256 .f32) (main_arg10 : FVec F S256 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S512x256 .f32) (main_arg6 : FVec F S256 .f32) (main_arg7 : FVec F S512x512 .f32) (main_arg8 : FVec F S512 .f32) (main_arg9 : FVec F S512x256 .f32) (main_arg10 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : IVec S2x320000 32) (main_arg2 : FVec F S320000x16 .f32) (main_arg3 : FVec F S528x512 .f32) (main_arg4 : FVec F S512 .f32) (main_arg5 : FVec F S512x256 .f32) (main_arg6 : FVec F S256 .f32) (main_arg7 : FVec F S512x512 .f32) (main_arg8 : FVec F S512 .f32) (main_arg9 : FVec F S512x256 .f32) (main_arg10 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S528x512 .f32 := Host.absf main_arg3
  let main_cst_2 : FVec F S_ .f32 := constant S_ .f32 0x7F800000#32
  let main_v10 : FVec F S528x512 .f32 := broadcastInDim S528x512 ![] bcast_S_S528x512 main_cst_2
  let main_v11 : IVec S528x512 1 := cmpf .olt main_v9 main_v10
  let main_c_3 : IVec S_ 1 := constantI S_ 1 1#1
  let main_v12 : IVec S_ 1 := (fun x v => Host.reduce IntOp.andi x v reducesTo_S528x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S320000x16 : Shape := ⟨2, ![320000, 16]⟩
abbrev S528x512 : Shape := ⟨2, ![528, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x512 : Shape := ⟨2, ![1, 512]⟩
abbrev S1x256 : Shape := ⟨2, ![1, 256]⟩
abbrev S2000x256 : Shape := ⟨2, ![2000, 256]⟩
abbrev S2000x16 : Shape := ⟨2, ![2000, 16]⟩
abbrev S256x512 : Shape := ⟨2, ![256, 512]⟩
abbrev S16x512 : Shape := ⟨2, ![16, 512]⟩
abbrev S2000x512 : Shape := ⟨2, ![2000, 512]⟩

abbrev nBuf : Space → Nat
  | .hbm => 43
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x16, .f32⟩
  | .hbm, ⟨3, _⟩ => ⟨S528x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S1x512, .f32⟩
  | .hbm, ⟨34, _⟩ => ⟨S1x256, .f32⟩
  | .hbm, ⟨35, _⟩ => ⟨S320000x256, .f32⟩
  | .hbm, ⟨36, _⟩ => ⟨S_, .f32⟩
  | .hbm, ⟨37, _⟩ => ⟨S10000x256, .f32⟩
  | .hbm, ⟨38, _⟩ => ⟨S320000x1, .i32⟩
  | .hbm, ⟨39, _⟩ => ⟨S10000x256, .f32⟩
  | .hbm, ⟨40, _⟩ => ⟨S1x512, .f32⟩
  | .hbm, ⟨41, _⟩ => ⟨S1x256, .f32⟩
  | .hbm, ⟨42, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x16, .f32⟩
  | .local _ .vmem, ⟨5, _⟩ => ⟨S2000x16, .f32⟩
  | .local _ .vmem, ⟨6, _⟩ => ⟨S528x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S512x512, .f32⟩
  | .local _ .vmem, ⟨17, _⟩ => ⟨S1x512, .f32⟩
  | .local _ .vmem, ⟨18, _⟩ => ⟨S512x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S528x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  shapeCasts_S512_S1x512 : S512.ShapeCasts S1x512
  shapeCasts_S256_S1x256 : S256.ShapeCasts S1x256
  inb_S528x512_S256x512_0_0 : ∀ a, (![0, 0] : Fin 2 → Nat) a + S256x512.size a ≤ S528x512.size a
  h_S256x512 : 0 < S256x512.numel
  inb_S528x512_S256x512_256_0 : ∀ a, (![256, 0] : Fin 2 → Nat) a + S256x512.size a ≤ S528x512.size a
  inb_S528x512_S16x512_512_0 : ∀ a, (![512, 0] : Fin 2 → Nat) a + S16x512.size a ≤ S528x512.size a
  h_S16x512 : 0 < S16x512.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S2000x16_S2000x16_0_0 : ∀ a, (![0, 0] : Fin 2 → Nat) a + S2000x16.size a ≤ S2000x16.size a
  h_S2000x16 : 0 < S2000x16.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S10000x256 : S_.BroadcastsInDim S10000x256 (![] : Fin 0 → Fin S10000x256.rank)
  inb_S512x512_S256x512_0_0 : ∀ a, (![0, 0] : Fin 2 → Nat) a + S256x512.size a ≤ S512x512.size a
  inb_S512x512_S256x512_256_0 : ∀ a, (![256, 0] : Fin 2 → Nat) a + S256x512.size a ≤ S512x512.size a
  gather_S10000x256_S320000x1_S320000x256_1_0_n_n_0_1_1256_wf : GatherDims.WF S10000x256 S320000x1 S320000x256 [1] [0] [] [0] [] 1 ![1, 256]
  dot_S2000x256_S256x512_S2000x512_1_0_0_1_n_n_wf : DotDims.WF S2000x256 S256x512 S2000x512 [1] [0] [0] [1] [] []
  dot_S2000x16_S16x512_S2000x512_1_0_0_1_n_n_wf : DotDims.WF S2000x16 S16x512 S2000x512 [1] [0] [0] [1] [] []
  dot_S2000x512_S512x256_S2000x256_1_0_0_1_n_n_wf : DotDims.WF S2000x512 S512x256 S2000x256 [1] [0] [0] [1] [] []
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S320000x256.size a
  hwx0_0 : ∀ i : grid0.Coords, EltTy.bits .f32 = 32 ∨ (Rect.block (s := S320000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S320000x256.size a
  hwx0_1 : ∀ i : grid0.Coords, EltTy.bits .f32 = 32 ∨ (Rect.block (s := S320000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S320000x16.size a
  hwx0_2 : ∀ i : grid0.Coords, EltTy.bits .f32 = 32 ∨ (Rect.block (s := S320000x16) S2000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S528x512.size a ≤ S528x512.size a
  hwx0_3 : ∀ i : grid0.Coords, EltTy.bits .f32 = 32 ∨ (Rect.block (s := S528x512) S528x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S320000x256.size a
  hwx0_7 : ∀ i : grid0.Coords, EltTy.bits .f32 = 32 ∨ (Rect.block (s := S320000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S10000x256.size a
  hwx1_6 : ∀ i : grid1.Coords, EltTy.bits .f32 = 32 ∨ (Rect.block (s := S10000x256) S2000x256.size (cc1_transform_6 i) (hinb1_6 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x16_S16x512_S2000x512_1_0_0_1_n_n : DotDims S2000x16 S16x512 S2000x512 where
  lhsContracting := [1]
  rhsContracting := [0]
  lhsNonContracting := [0]
  rhsNonContracting := [1]
  lhsBatch := []
  rhsBatch := []
  wf := dot_S2000x16_S16x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_v10) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S528x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000x16 : Shape := ⟨2, ![320000, 16]⟩
abbrev S528x512 : Shape := ⟨2, ![528, 512]⟩
abbrev S512 : Shape := ⟨1, ![512]⟩
abbrev S512x256 : Shape := ⟨2, ![512, 256]⟩
abbrev S256 : Shape := ⟨1, ![256]⟩
abbrev S512x512 : Shape := ⟨2, ![512, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x528 : Shape := ⟨2, ![320000, 528]⟩
abbrev S320000x512 : Shape := ⟨2, ![320000, 512]⟩
abbrev S1x512 : Shape := ⟨2, ![1, 512]⟩
abbrev S1x256 : Shape := ⟨2, ![1, 256]⟩
abbrev S10000x512 : Shape := ⟨2, ![10000, 512]⟩

abbrev nBuf : Space → Nat
  | .hbm => 62
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x16, .f32⟩
  | .hbm, ⟨3, _⟩ => ⟨S528x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S320000x528, .f32⟩
  | .hbm, ⟨34, _⟩ => ⟨S320000x512, .f32⟩
  | .hbm, ⟨35, _⟩ => ⟨S1x512, .f32⟩
  | .hbm, ⟨36, _⟩ => ⟨S320000x512, .f32⟩
  | .hbm, ⟨37, _⟩ => ⟨S320000x512, .f32⟩
  | .hbm, ⟨38, _⟩ => ⟨S_, .f32⟩
  | .hbm, ⟨39, _⟩ => ⟨S320000x512, .f32⟩
  | .hbm, ⟨40, _⟩ => ⟨S320000x512, .f32⟩
  | .hbm, ⟨41, _⟩ => ⟨S320000x256, .f32⟩
  | .hbm, ⟨42, _⟩ => ⟨S1x256, .f32⟩
  | .hbm, ⟨43, _⟩ => ⟨S320000x256, .f32⟩
  | .hbm, ⟨44, _⟩ => ⟨S320000x256, .f32⟩
  | .hbm, ⟨45, _⟩ => ⟨S_, .f32⟩
  | .hbm, ⟨46, _⟩ => ⟨S10000x256, .f32⟩
  | .hbm, ⟨47, _⟩ => ⟨S320000x1, .i32⟩
  | .hbm, ⟨48, _⟩ => ⟨S10000x256, .f32⟩
  | .hbm, ⟨49, _⟩ => ⟨S10000x512, .f32⟩
  | .hbm, ⟨50, _⟩ => ⟨S10000x512, .f32⟩
  | .hbm, ⟨51, _⟩ => ⟨S1x512, .f32⟩
  | .hbm, ⟨52, _⟩ => ⟨S10000x512, .f32⟩
  | .hbm, ⟨53, _⟩ => ⟨S10000x512, .f32⟩
  | .hbm, ⟨54, _⟩ => ⟨S_, .f32⟩
  | .hbm, ⟨55, _⟩ => ⟨S10000x512, .f32⟩
  | .hbm, ⟨56, _⟩ => ⟨S10000x512, .f32⟩
  | .hbm, ⟨57, _⟩ => ⟨S10000x256, .f32⟩
  | .hbm, ⟨58, _⟩ => ⟨S1x256, .f32⟩
  | .hbm, ⟨59, _⟩ => ⟨S10000x256, .f32⟩
  | .hbm, ⟨60, _⟩ => ⟨S10000x256, .f32⟩
  | .hbm, ⟨61, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x16_S320000x528_d1 : Shape.Concatenates [S320000x256, S320000x256, S320000x16] S320000x528 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S10000x256 : S_.BroadcastsInDim S10000x256 (![] : Fin 0 → Fin S10000x256.rank)
  concatenates_S10000x256_S10000x256_S10000x512_d1 : Shape.Concatenates [S10000x256, S10000x256] S10000x512 1
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x528_S528x512_S320000x512_1_0_0_1_n_n_wf : DotDims.WF S320000x528 S528x512 S320000x512 [1] [0] [0] [1] [] []
  dot_S320000x512_S512x256_S320000x256_1_0_0_1_n_n_wf : DotDims.WF S320000x512 S512x256 S320000x256 [1] [0] [0] [1] [] []
  scatter_S10000x256_S320000x1_S320000x256_1_0_0_1_wf : ScatterDims.WF S10000x256 S320000x1 S320000x256 [1] [0] [0] 1
  dot_S10000x512_S512x512_S10000x512_1_0_0_1_n_n_wf : DotDims.WF S10000x512 S512x512 S10000x512 [1] [0] [0] [1] [] []
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x528_S528x512_S320000x512_1_0_0_1_n_n : DotDims S320000x528 S528x512 S320000x512 where
  lhsContracting := [1]
  rhsContracting := [0]
  lhsNonContracting := [0]
  rhsNonContracting := [1]
  lhsBatch := []
  rhsBatch := []
  wf := dot_S320000x528_S528x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.RunNamed.lean ====
/-
  The idealized kernel's run with its result array named.

  @main is two pipelined kernel launches among stretches of host operations. Every weakly fair execution from a memory
  with zero counters terminates without a fault; at the end the result array holds what the second launch's write-backs
  leave in it — the last of the buffer contents followed through @main's four segments — and the argument arrays are as
  launched.
-/
import proofs.«122586_j43782896615992_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its four segments: the result array ends at the last boundary's contents, the arguments as
    launched. -/
theorem run_named : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Named

end
-- ==== Proof.LibThreePasses.lean ====
/-
  Real-valued arrays over the extended reals, and a matrix product computed in three passes from split operands.

  An array of extended reals is REAL-VALUED when no entry is an infinity. Such arrays are closed under sums, products,
  maxima and finite sums, and a real-valued entry minus itself is zero — which an infinite entry's is not.

  A product of two matrices is sometimes computed from operands split as `x = hi + lo`: the three passes
  `hi·hi' + hi·lo' + lo·hi'`, the second-order pass `lo·lo'` left out. When the split is exact on one side — `hi = x`,
  `lo = x - x` — and both operands are real-valued, `lo` is the zero matrix, the two mixed passes vanish, and the three
  passes together are the one product `x·x'`, whatever the contraction's dimension numbers.
-/
import Idealize.ShloMosaic.PureOps.Ideal.Laws
import Idealize.ShloMosaic.Lib.ValueIdx

noncomputable section

open scoped BigOperators

namespace Cert.Lib

open Idealize.ShloMosaic Idealize.ShloMosaic.ValueIdx

/-- No entry of the array is an infinity. -/
def RealValued {ι : Type} (x : ι → EReal) : Prop := ∀ i, ∃ r : ℝ, x i = (r : EReal)

/-- An extended real that is a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A real number minus itself is zero (an infinity minus itself is not). -/
theorem IsReal.sub_self {x : EReal} (hx : IsReal x) : x - x = 0 := by
  obtain ⟨a, rfl⟩ := hx
  rw [← EReal.coe_sub, _root_.sub_self, EReal.coe_zero]

/-- A product of real-valued operands into a zero accumulator is real-valued: each entry is a finite sum of products. -/
theorem realValued_matmul {sl sr so : Shape} {φ₁ φ₂ : FTy} (d : DotDims sl sr so) (prec : Option ContractPrecision)
    (a : FVec Ideal sl φ₁) (b : FVec Ideal sr φ₂) (ha : RealValued a) (hb : RealValued b) :
    RealValued (matmul d prec a b (constant so .f32 0x00000000#32)) := fun j => by
  simp only [matmul]
  rw [Ideal.matmul_constant_zero_apply]
  exact isReal_sum _ _ fun k _ => IsReal.mul (ha _) (hb _)

/-- THE THREE PASSES ARE ONE PRODUCT. For real-valued operands `a`, `b` of any contraction `d`, the product of `a` and
    `b`, plus the product of `a` and `b - b`, plus the product of `a - a` and `b`, each into a zero accumulator and with
    any change of float format on the way in, is the product of `a` and `b`: `b - b` and `a - a` are zero matrices. -/
theorem matmul_three_passes {sl sr so : Shape} (d : DotDims sl sr so) (prec : Option ContractPrecision)
    (a : FVec Ideal sl .f32) (b : FVec Ideal sr .f32) (ha : RealValued a) (hb : RealValued b)
    (hφ : FTy.bf16.bits < FTy.f32.bits) :
    addf (addf (matmul d prec (truncf .bf16 a hφ) (truncf .bf16 b hφ) (constant so .f32 0x00000000#32))
               (matmul d prec (truncf .bf16 a hφ) (truncf .bf16 (subf b b) hφ) (constant so .f32 0x00000000#32)))
         (matmul d prec (truncf .bf16 (subf a a) hφ) (truncf .bf16 b hφ) (constant so .f32 0x00000000#32))
      = matmul d prec a b (constant so .f32 0x00000000#32) := by
  funext j
  rw [addf_apply, addf_apply]
  simp only [matmul]
  rw [Ideal.matmul_constant_zero_apply, Ideal.matmul_constant_zero_apply, Ideal.matmul_constant_zero_apply,
    Ideal.matmul_constant_zero_apply]
  have h2 : (∑ k : d.contr.Idx, (truncf .bf16 a hφ : FVec Ideal sl .bf16) (d.lhsIdx j k)
      * (truncf .bf16 (subf b b) hφ : FVec Ideal sr .bf16) (d.rhsIdx j k)) = 0 :=
    Finset.sum_eq_zero fun k _ => by
      rw [truncf_apply, truncf_apply, subf_apply, IsReal.sub_self (hb _), mul_zero]
  have h3 : (∑ k : d.contr.Idx, (truncf .bf16 (subf a a) hφ : FVec Ideal sl .bf16) (d.lhsIdx j k)
      * (truncf .bf16 b hφ : FVec Ideal sr .bf16) (d.rhsIdx j k)) = 0 :=
    Finset.sum_eq_zero fun k _ => by
      rw [truncf_apply, truncf_apply, subf_apply, IsReal.sub_self (ha _), zero_mul]
  rw [h2, h3, add_zero, add_zero]
  exact Finset.sum_congr rfl fun k _ => by rw [truncf_apply, truncf_apply]

end Cert.Lib

end
-- ==== Proof.Spec.lean ====
/-
  The message-passing layer, row by row, over the extended reals.

  An edge's MESSAGE is a two-layer perceptron of the edge's three feature rows `a` (target node, 256 wide), `b` (source
  node, 256 wide) and `c` (edge, 16 wide): the hidden row is `relu (a·W[0:256] + b·W[256:512] + c·W[512:528] + β)`, 512
  wide, and the message `hidden·W₂ + β₂`, 256 wide. A node's UPDATE is its feature row `x` plus a two-layer perceptron of
  `x` and its aggregated messages `g`: `x + (relu (x·U[0:256] + g·U[256:512] + γ)·U₂ + γ₂)`. The first layer's weight
  matrix is used by row ranges, which is how a product with the side-by-side concatenation of the feature rows splits.

  Each is real-valued when its inputs are: sums, products and maxima of real numbers.
-/
import Idealize.ShloMosaic.PureOps.Ideal.Laws
import Idealize.ShloMosaic.Lib.ValueIdx
import proofs.«122586_j43782896615992_2_alg».proof.Proof.LibThreePasses

noncomputable section

open scoped BigOperators

namespace Cert.Spec

open Idealize.ShloMosaic Idealize.ShloMosaic.ValueIdx Cert.Lib

/-- Row `p` of a matrix. -/
abbrev row {A B : ℕ} (x : (⟨2, ![A, B]⟩ : Shape).Idx → EReal) (p : Fin A) : Fin B → EReal := fun q => x (ix2 p q)

/-- A vector by its coordinate. -/
abbrev vec {B : ℕ} (x : (⟨1, ![B]⟩ : Shape).Idx → EReal) : Fin B → EReal := fun q => x (ix1 q)

/-- The one row of a `[1, B]` matrix. -/
abbrev row0 {B : ℕ} (x : (⟨2, ![1, B]⟩ : Shape).Idx → EReal) : Fin B → EReal := fun q => x (ix2 (0 : Fin 1) q)

/-- The message perceptron's hidden row. -/
def hidden3 (a b : Fin 256 → EReal) (c : Fin 16 → EReal) (W : (⟨2, ![528, 512]⟩ : Shape).Idx → EReal)
    (β : Fin 512 → EReal) (j : Fin 512) : EReal :=
  max ((((∑ k : Fin 256, a k * W (ix2 (⟨k.val, by omega⟩ : Fin 528) j))
          + (∑ k : Fin 256, b k * W (ix2 (⟨256 + k.val, by omega⟩ : Fin 528) j)))
        + (∑ k : Fin 16, c k * W (ix2 (⟨512 + k.val, by omega⟩ : Fin 528) j))) + β j) 0

/-- An edge's message. -/
def message (a b : Fin 256 → EReal) (c : Fin 16 → EReal) (W : (⟨2, ![528, 512]⟩ : Shape).Idx → EReal)
    (β : Fin 512 → EReal) (W₂ : (⟨2, ![512, 256]⟩ : Shape).Idx → EReal) (β₂ : Fin 256 → EReal) (q : Fin 256) : EReal :=
  (∑ j : Fin 512, hidden3 a b c W β j * W₂ (ix2 j q)) + β₂ q

/-- The update perceptron's hidden row. -/
def hidden2 (x g : Fin 256 → EReal) (U : (⟨2, ![512, 512]⟩ : Shape).Idx → EReal) (γ : Fin 512 → EReal) (j : Fin 512) : EReal :=
  max (((∑ k : Fin 256, x k * U (ix2 (⟨k.val, by omega⟩ : Fin 512) j))
        + (∑ k : Fin 256, g k * U (ix2 (⟨256 + k.val, by omega⟩ : Fin 512) j))) + γ j) 0

/-- A node's updated feature row. -/
def update (x g : Fin 256 → EReal) (U : (⟨2, ![512, 512]⟩ : Shape).Idx → EReal) (γ : Fin 512 → EReal)
    (U₂ : (⟨2, ![512, 256]⟩ : Shape).Idx → EReal) (γ₂ : Fin 256 → EReal) (q : Fin 256) : EReal :=
  x q + ((∑ j : Fin 512, hidden2 x g U γ j * U₂ (ix2 j q)) + γ₂ q)

/-- All the messages: edge `e`'s from row `e` of the gathered target rows, source rows and edge features. -/
def messages {E : ℕ} (NI NJ : (⟨2, ![E, 256]⟩ : Shape).Idx → EReal) (EF : (⟨2, ![E, 16]⟩ : Shape).Idx → EReal)
    (W : (⟨2, ![528, 512]⟩ : Shape).Idx → EReal) (β : Fin 512 → EReal)
    (W₂ : (⟨2, ![512, 256]⟩ : Shape).Idx → EReal) (β₂ : Fin 256 → EReal) : (⟨2, ![E, 256]⟩ : Shape).Idx → EReal :=
  fun i => message (row NI (i 0)) (row NJ (i 0)) (row EF (i 0)) W β W₂ β₂ (i 1)

/-- All the updated rows: node `n`'s from row `n` of the features and of the aggregated messages. -/
def updated {N : ℕ} (X G : (⟨2, ![N, 256]⟩ : Shape).Idx → EReal) (U : (⟨2, ![512, 512]⟩ : Shape).Idx → EReal)
    (γ : Fin 512 → EReal) (U₂ : (⟨2, ![512, 256]⟩ : Shape).Idx → EReal) (γ₂ : Fin 256 → EReal) :
    (⟨2, ![N, 256]⟩ : Shape).Idx → EReal :=
  fun i => update (row X (i 0)) (row G (i 0)) U γ U₂ γ₂ (i 1)

theorem messages_apply {E : ℕ} (NI NJ : (⟨2, ![E, 256]⟩ : Shape).Idx → EReal) (EF : (⟨2, ![E, 16]⟩ : Shape).Idx → EReal)
    (W : (⟨2, ![528, 512]⟩ : Shape).Idx → EReal) (β : Fin 512 → EReal)
    (W₂ : (⟨2, ![512, 256]⟩ : Shape).Idx → EReal) (β₂ : Fin 256 → EReal) (e : Fin E) (q : Fin 256) :
    messages NI NJ EF W β W₂ β₂ (ix2 e q) = message (row NI e) (row NJ e) (row EF e) W β W₂ β₂ q := rfl

theorem updated_apply {N : ℕ} (X G : (⟨2, ![N, 256]⟩ : Shape).Idx → EReal) (U : (⟨2, ![512, 512]⟩ : Shape).Idx → EReal)
    (γ : Fin 512 → EReal) (U₂ : (⟨2, ![512, 256]⟩ : Shape).Idx → EReal) (γ₂ : Fin 256 → EReal) (n : Fin N) (q : Fin 256) :
    updated X G U γ U₂ γ₂ (ix2 n q) = update (row X n) (row G n) U γ U₂ γ₂ q := rfl

/-! ## Real-valuedness -/

theorem hidden3_real {a b : Fin 256 → EReal} {c : Fin 16 → EReal} {W : (⟨2, ![528, 512]⟩ : Shape).Idx → EReal}
    {β : Fin 512 → EReal} (ha : RealValued a) (hb : RealValued b) (hc : RealValued c) (hW : RealValued W)
    (hβ : RealValued β) (j : Fin 512) : IsReal (hidden3 a b c W β j) :=
  IsReal.max
    (((((isReal_sum _ _ fun k _ => IsReal.mul (ha k) (hW _)).add (isReal_sum _ _ fun k _ => IsReal.mul (hb k) (hW _))).add
      (isReal_sum _ _ fun k _ => IsReal.mul (hc k) (hW _))).add (hβ j))) isReal_zero

theorem message_real {a b : Fin 256 → EReal} {c : Fin 16 → EReal} {W : (⟨2, ![528, 512]⟩ : Shape).Idx → EReal}
    {β : Fin 512 → EReal} {W₂ : (⟨2, ![512, 256]⟩ : Shape).Idx → EReal} {β₂ : Fin 256 → EReal}
    (ha : RealValued a) (hb : RealValued b) (hc : RealValued c) (hW : RealValued W)
    (hβ : RealValued β) (hW₂ : RealValued W₂) (hβ₂ : RealValued β₂) (q : Fin 256) : IsReal (message a b c W β W₂ β₂ q) :=
  (isReal_sum _ _ fun j _ => (hidden3_real ha hb hc hW hβ j).mul (hW₂ _)).add (hβ₂ q)

theorem messages_real {E : ℕ} {NI NJ : (⟨2, ![E, 256]⟩ : Shape).Idx → EReal} {EF : (⟨2, ![E, 16]⟩ : Shape).Idx → EReal}
    {W : (⟨2, ![528, 512]⟩ : Shape).Idx → EReal} {β : Fin 512 → EReal}
    {W₂ : (⟨2, ![512, 256]⟩ : Shape).Idx → EReal} {β₂ : Fin 256 → EReal}
    (hNI : RealValued NI) (hNJ : RealValued NJ) (hEF : RealValued EF) (hW : RealValued W)
    (hβ : RealValued β) (hW₂ : RealValued W₂) (hβ₂ : RealValued β₂) : RealValued (messages NI NJ EF W β W₂ β₂) :=
  fun i => message_real (fun k => hNI _) (fun k => hNJ _) (fun k => hEF _) hW hβ hW₂ hβ₂ (i 1)

theorem hidden2_real {x g : Fin 256 → EReal} {U : (⟨2, ![512, 512]⟩ : Shape).Idx → EReal} {γ : Fin 512 → EReal}
    (hx : RealValued x) (hg : RealValued g) (hU : RealValued U) (hγ : RealValued γ) (j : Fin 512) :
    IsReal (hidden2 x g U γ j) :=
  IsReal.max (((isReal_sum _ _ fun k _ => IsReal.mul (hx k) (hU _)).add (isReal_sum _ _ fun k _ => IsReal.mul (hg k) (hU _))).add (hγ j))
    isReal_zero

end Cert.Spec

end
-- ==== Proof.Glue.lean ====
/-
  The host operations around the two launches, and the kernel's result.

  Before the first launch the host gathers the target and source rows of every edge and reshapes the two biases; between
  the launches it adds every edge's message into its target node's row, starting from zeros, and reshapes the other two
  biases. These are the reference's own operations on the same arguments, so the arrays the launches find are the
  reference's intermediate arrays; they are real-valued because the arguments are: a gathered entry is an entry of the
  node features, and a scatter-added entry is zero plus a finite sum of messages.
-/
import proofs.«122586_j43782896615992_2_alg».proof.Proof.Gen.KernelIdeal.Frame
import proofs.«122586_j43782896615992_2_alg».proof.Proof.Gen.ReferenceIdeal.Read
import proofs.«122586_j43782896615992_2_alg».proof.Proof.Spec
import Idealize.ShloMosaic.Lib.StableHlo.Run
import Idealize.ShloMosaic.Lib.ValueLayout

set_option maxRecDepth 16384

noncomputable section

open scoped BigOperators

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx Cert.Lib

variable (m : (ℓ : Loc nD τ sig) → Buf (Elt Ideal) ℓ) (ρ : Dev nD → PrngReg)

/-- The gathered target rows the first launch finds are the reference's. -/
theorem V1_v10 (c : Dev nD) :
    (V1 m ρ c main_v10 : S320000x256.Idx → EReal)
      = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results
  rfl

/-- The gathered source rows likewise. -/
theorem V1_v17 (c : Dev nD) :
    (V1 m ρ c main_v17 : S320000x256.Idx → EReal)
      = Cert.ReferenceIdeal.Read.val_main_v17 (F := Ideal) (m ((c : Thread nD τ).loc main_arg0)) (m ((c : Thread nD τ).loc main_arg1)) := by
  show StableHlo.after hostOps0 (W0 m ρ c) (Proc.devRef .tc main_v17) = _
  after_results
  rfl

theorem V1_arg2 (c : Dev nD) : (V1 m ρ c main_arg2 : S320000x16.Idx → EReal) = m ((c : Thread nD τ).loc main_arg2) := by
  show StableHlo.after hostOps0 (W0 m ρ c) (Proc.devRef .tc main_arg2) = _
  after_results

theorem V1_arg3 (c : Dev nD) : (V1 m ρ c main_arg3 : S528x512.Idx → EReal) = m ((c : Thread nD τ).loc main_arg3) := by
  show StableHlo.after hostOps0 (W0 m ρ c) (Proc.devRef .tc main_arg3) = _
  after_results

theorem V1_arg5 (c : Dev nD) : (V1 m ρ c main_arg5 : S512x256.Idx → EReal) = m ((c : Thread nD τ).loc main_arg5) := by
  show StableHlo.after hostOps0 (W0 m ρ c) (Proc.devRef .tc main_arg5) = _
  after_results

/-- The first bias as a one-row matrix. -/
theorem V1_v18 (c : Dev nD) :
    (V1 m ρ c main_v18 : S1x512.Idx → EReal)
      = shapeCast S1x512 (m ((c : Thread nD τ).loc main_arg4) : S512.Idx → EReal) shapeCasts_S512_S1x512 := by
  show StableHlo.after hostOps0 (W0 m ρ c) (Proc.devRef .tc main_v18) = _
  after_results
  rfl

/-- The second bias as a one-row matrix. -/
theorem V1_v19 (c : Dev nD) :
    (V1 m ρ c main_v19 : S1x256.Idx → EReal)
      = shapeCast S1x256 (m ((c : Thread nD τ).loc main_arg6) : S256.Idx → EReal) shapeCasts_S256_S1x256 := by
  show StableHlo.after hostOps0 (W0 m ρ c) (Proc.devRef .tc main_v19) = _
  after_results
  rfl

/-- The one row of a vector cast to a one-row matrix is the vector. -/
theorem row0_cast {b : ℕ} (x : (⟨1, ![b]⟩ : Shape).Idx → EReal) (h : (⟨1, ![b]⟩ : Shape).ShapeCasts ⟨2, ![1, b]⟩) :
    Spec.row0 (shapeCast ⟨2, ![1, b]⟩ x h) = Spec.vec x :=
  funext fun q => shapeCast_a_1a_apply x h 0 q

/-- A gathered array of a real-valued array is real-valued: each entry is one of the operand's. -/
theorem realValued_gather {s si t : Shape} {w : ℕ} (d : GatherDims s si t) (x : s.Idx → EReal) (idx : IVec si w)
    (hx : RealValued x) : RealValued (Host.gather d x idx) := fun j => hx _

/-- A cast of a real-valued array is real-valued. -/
theorem realValued_shapeCast {s t : Shape} (x : s.Idx → EReal) (h : s.ShapeCasts t) (hx : RealValued x) :
    RealValued (shapeCast t x h) := fun j => by unfold shapeCast; exact hx _

/-- A float scatter-add of real-valued updates into a real-valued array is real-valued: each entry is the operand's plus a
    finite sum of updates. -/
theorem realValued_scatterAdd {s si u : Shape} {w : ℕ} (d : ScatterDims s si u) (x : FVec Ideal s .f32) (idx : IVec si w)
    (upd : FVec Ideal u .f32) (hx : RealValued x) (hu : RealValued upd) : RealValued (Host.scatterAdd d x idx upd) := fun i => by
  show IsReal (Ideal.hostScatterAdd d x idx upd i)
  unfold Ideal.hostScatterAdd
  exact IsReal.add (hx i) (isReal_sum _ _ fun j _ => hu j)

/-! ## Between the launches -/

/-- An argument the first launch does not write is, at the second stretch of host operations, as launched. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

theorem V3_arg0 (c : Dev nD) : (V3 m ρ c main_arg0 : S10000x256.Idx → EReal) = m ((c : Thread nD τ).loc main_arg0) := by
  show StableHlo.after hostOps1 (W2 m ρ c) (Proc.devRef .tc main_arg0) = _
  after_results
  exact W2_arg0 m ρ c
theorem V3_arg7 (c : Dev nD) : (V3 m ρ c main_arg7 : S512x512.Idx → EReal) = m ((c : Thread nD τ).loc main_arg7) := by
  show StableHlo.after hostOps1 (W2 m ρ c) (Proc.devRef .tc main_arg7) = _
  after_results
  exact W2_arg7 m ρ c
theorem V3_arg9 (c : Dev nD) : (V3 m ρ c main_arg9 : S512x256.Idx → EReal) = m ((c : Thread nD τ).loc main_arg9) := by
  show StableHlo.after hostOps1 (W2 m ρ c) (Proc.devRef .tc main_arg9) = _
  after_results
  exact W2_arg9 m ρ c

/-- The third bias as a one-row matrix. -/
theorem V3_v24 (c : Dev nD) :
    (V3 m ρ c main_v24 : S1x512.Idx → EReal)
      = shapeCast S1x512 (m ((c : Thread nD τ).loc main_arg8) : S512.Idx → EReal) shapeCasts_S512_S1x512 := by
  show StableHlo.after hostOps1 (W2 m ρ c) (Proc.devRef .tc main_v24) = _
  after_results
  rw [W2_arg8]
  rfl

/-- The fourth bias as a one-row matrix. -/
theorem V3_v25 (c : Dev nD) :
    (V3 m ρ c main_v25 : S1x256.Idx → EReal)
      = shapeCast S1x256 (m ((c : Thread nD τ).loc main_arg10) : S256.Idx → EReal) shapeCasts_S256_S1x256 := by
  show StableHlo.after hostOps1 (W2 m ρ c) (Proc.devRef .tc main_v25) = _
  after_results
  rw [W2_arg10]
  rfl

/-- The target indices, as the scatter takes them, are the reference's. -/
theorem W2_v1 (c : Dev nD) :
    (W2 m ρ c (Proc.devRef .tc main_v1) : S320000.Idx → BitVec 32)
      = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)

/-- THE AGGREGATED MESSAGES the second launch finds: the reference's scatter-add, from zeros and at the reference's
    indices, of whatever the first launch left in its result array. -/
theorem V3_v23 (c : Dev nD) (M : FVec Ideal S320000x256 .f32) (hM : (W2 m ρ c (Proc.devRef .tc main_v20) : S320000x256.Idx → EReal) = M) :
    (V3 m ρ c main_v23 : S10000x256.Idx → EReal)
      = (Host.scatterAdd (F := Ideal) (φ := .f32) Cert.ReferenceIdeal.scatter_S10000x256_S320000x1_S320000x256_1_0_0_1
          (Cert.ReferenceIdeal.Read.val_main_v28 (F := Ideal))
          (Cert.ReferenceIdeal.Read.val_main_v29 (F := Ideal) (m ((c : Thread nD τ).loc main_arg1))) M : S10000x256.Idx → EReal) := by
  show StableHlo.after hostOps1 (W2 m ρ c) (Proc.devRef .tc main_v23) = _
  after_results
  rw [hM, W2_v1]
  rfl

end Cert.KernelIdeal.Glue

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Body0.lean ====
/-
  The message kernel's block, entry by entry.

  On one block of 2000 edges the kernel holds the target rows `t`, the source rows `s` and the edge features `e`, the
  three row ranges `A`, `B`, `C` of the first layer's weights, the bias row `β`, the second layer's weights `W₂` and its
  bias row `β₂`. Every product is computed in three passes from operands split as `x = x + (x - x)`; on real-valued
  operands the three passes are the one product (`Cert.Lib.matmul_three_passes`), so the block's entry `(p, q)` is
  `Σ_j relu (Σ_k t(p,k)·A(k,j) + Σ_k s(p,k)·B(k,j) + Σ_k e(p,k)·C(k,j) + β(j)) · W₂(j,q) + β₂(q)`.
  The hidden layer is real-valued because its operands are, which is what the second layer's three passes need.
-/
import proofs.«122586_j43782896615992_2_alg».proof.Proof.Gen.KernelIdeal.Skeleton
import proofs.«122586_j43782896615992_2_alg».proof.Proof.LibThreePasses
import proofs.«122586_j43782896615992_2_alg».proof.Proof.LibMatmulPlain
import Idealize.ShloMosaic.Lib.Pipeline.Value
import Idealize.ShloMosaic.Lib.ValueLayout

noncomputable section

open scoped BigOperators

namespace Cert.KernelIdeal.Body0

open Cert.KernelIdeal Cert.KernelIdeal.Gen Idealize.ShloMosaic Idealize.ShloMosaic.ValueIdx Cert.Lib

/-- The hidden layer of a block, as the kernel's operations leave it once every product is one product. -/
def hid (v33 : FVec Ideal S2000x512 .f32) (x : FVec Ideal S2000x16 .f32) (w : FVec Ideal S16x512 .f32)
    (v49 : FVec Ideal S1x512 .f32) : FVec Ideal S2000x512 .f32 :=
  maximumf (addf (addf v33 (matmul dot_S2000x16_S16x512_S2000x512_1_0_0_1_n_n none x w (constant S2000x512 .f32 0x00000000#32)))
    (broadcastTo S2000x512 (shapeCast S1x512 v49 shapeCasts_S1x512_S1x512) broadcasts_S1x512_S2000x512))
    (broadcast S2000x512 (Scalar.ofBits (F := Ideal) .f32 0x00000000#32))

theorem hid_real {v33 : FVec Ideal S2000x512 .f32} {x : FVec Ideal S2000x16 .f32} {w : FVec Ideal S16x512 .f32}
    {v49 : FVec Ideal S1x512 .f32} (h33 : RealValued v33) (hx : RealValued x) (hw : RealValued w) (h49 : RealValued v49) :
    RealValued (hid v33 x w v49) := fun i => by
  unfold hid
  rw [maximumf_apply, addf_apply, addf_apply, shapeCast_self]
  refine IsReal.max (IsReal.add (IsReal.add (h33 i) (realValued_matmul _ none x w hx hw i)) ?_) ?_
  · unfold broadcastTo
    exact h49 _
  · exact ⟨0, Ideal.ofBits_zero_f32⟩

/-- The first two products of the first layer, each in three passes, are the two products. -/
theorem pay2_eq (v0 v1 : FVec Ideal S256x512 .f32) (v3 v18 : FVec Ideal S2000x256 .f32)
    (h0 : RealValued v0) (h1 : RealValued v1) (h3 : RealValued v3) (h18 : RealValued v18) :
    k0_pay2 (F := Ideal) v0 v1 v3 v18
      = addf (matmul dot_S2000x256_S256x512_S2000x512_1_0_0_1_n_n none v3 v0 (constant S2000x512 .f32 0x00000000#32))
             (matmul dot_S2000x256_S256x512_S2000x512_1_0_0_1_n_n none v18 v1 (constant S2000x512 .f32 0x00000000#32)) := by
  unfold k0_pay2
  simp only [shapeCast_self]
  rw [matmul_three_passes _ none v3 v0 h3 h0, matmul_three_passes _ none v18 v1 h18 h1]

theorem pay2_real {v0 v1 : FVec Ideal S256x512 .f32} {v3 v18 : FVec Ideal S2000x256 .f32}
    (h0 : RealValued v0) (h1 : RealValued v1) (h3 : RealValued v3) (h18 : RealValued v18) :
    RealValued (k0_pay2 (F := Ideal) v0 v1 v3 v18) := fun i => by
  rw [pay2_eq v0 v1 v3 v18 h0 h1 h3 h18, addf_apply]
  exact IsReal.add (realValued_matmul _ none v3 v0 h3 h0 i) (realValued_matmul _ none v18 v1 h18 h1 i)

/-- The stored block: the second layer's one product of the hidden layer, plus the bias row. -/
theorem pay1_eq (w : FVec Ideal S16x512 .f32) (v33 : FVec Ideal S2000x512 .f32) (x : FVec Ideal S2000x16 .f32)
    (v49 : FVec Ideal S1x512 .f32) (v55 : FVec Ideal S512x256 .f32) (v69 : FVec Ideal S1x256 .f32)
    (hw : RealValued w) (h33 : RealValued v33) (hx : RealValued x) (h49 : RealValued v49) (h55 : RealValued v55) :
    k0_pay1 (F := Ideal) w v33 (k0_pay3 x) (k0_pay4 x) (k0_pay5 w) (k0_pay6 w) v49 v55 v69
      = addf (matmul dot_S2000x512_S512x256_S2000x256_1_0_0_1_n_n none (hid v33 x w v49) v55 (constant S2000x256 .f32 0x00000000#32))
             (broadcastTo S2000x256 (shapeCast S1x256 v69 shapeCasts_S1x256_S1x256) broadcasts_S1x256_S2000x256) := by
  unfold k0_pay1 k0_pay3 k0_pay4 k0_pay5 k0_pay6
  simp only []
  rw [matmul_three_passes _ none x w hx hw]
  exact congrArg (fun z => addf z _) (matmul_three_passes _ none (hid v33 x w v49) v55 (hid_real h33 hx hw h49) h55 _)

/-! ## Entries -/

theorem D1_plain : dot_S2000x256_S256x512_S2000x512_1_0_0_1_n_n = DotDims.plain 2000 256 512 := rfl
theorem D2_plain : dot_S2000x16_S16x512_S2000x512_1_0_0_1_n_n = DotDims.plain 2000 16 512 := rfl
theorem D3_plain : dot_S2000x512_S512x256_S2000x256_1_0_0_1_n_n = DotDims.plain 2000 512 256 := rfl

/-- Entry `(p, j)` of a `2000 × 256` by `256 × 512` product. -/
theorem mm1_apply (l : FVec Ideal S2000x256 .f32) (r : FVec Ideal S256x512 .f32) (p : Fin 2000) (j : Fin 512) :
    matmul dot_S2000x256_S256x512_S2000x512_1_0_0_1_n_n none l r (constant S2000x512 .f32 0x00000000#32) (ix2 p j)
      = ∑ k : Fin 256, l (ix2 p k) * r (ix2 k j) := by
  simp only [matmul]
  rw [D1_plain]
  exact matmul_plain_zero_apply 2000 256 512 none l r p j

/-- Entry `(p, j)` of a `2000 × 16` by `16 × 512` product. -/
theorem mm2_apply (l : FVec Ideal S2000x16 .f32) (r : FVec Ideal S16x512 .f32) (p : Fin 2000) (j : Fin 512) :
    matmul dot_S2000x16_S16x512_S2000x512_1_0_0_1_n_n none l r (constant S2000x512 .f32 0x00000000#32) (ix2 p j)
      = ∑ k : Fin 16, l (ix2 p k) * r (ix2 k j) := by
  simp only [matmul]
  rw [D2_plain]
  exact matmul_plain_zero_apply 2000 16 512 none l r p j

/-- Entry `(p, q)` of a `2000 × 512` by `512 × 256` product. -/
theorem mm3_apply (l : FVec Ideal S2000x512 .f32) (r : FVec Ideal S512x256 .f32) (p : Fin 2000) (q : Fin 256) :
    matmul dot_S2000x512_S512x256_S2000x256_1_0_0_1_n_n none l r (constant S2000x256 .f32 0x00000000#32) (ix2 p q)
      = ∑ j : Fin 512, l (ix2 p j) * r (ix2 j q) := by
  simp only [matmul]
  rw [D3_plain]
  exact matmul_plain_zero_apply 2000 512 256 none l r p q

/-- A bias row `[1, b]` (behind a cast to its own shape) spread over the rows, read at an entry. -/
theorem bias_apply {a b : ℕ} (v : FVec Ideal ⟨2, ![1, b]⟩ .f32) (hs : (⟨2, ![1, b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hs) hb (ix2 p q) = v (ix2 (0 : Fin 1) q) := by
  rw [shapeCast_self]
  exact broadcastTo_1b_ab_apply v hb p q

/-- The hidden layer at an entry. -/
theorem hid_apply (v33 : FVec Ideal S2000x512 .f32) (x : FVec Ideal S2000x16 .f32) (w : FVec Ideal S16x512 .f32)
    (v49 : FVec Ideal S1x512 .f32) (p : Fin 2000) (j : Fin 512) :
    hid v33 x w v49 (ix2 p j)
      = max ((v33 (ix2 p j) + ∑ k : Fin 16, x (ix2 p k) * w (ix2 k j)) + v49 (ix2 (0 : Fin 1) j)) 0 := by
  unfold hid
  rw [maximumf_apply, addf_apply, addf_apply, mm2_apply, bias_apply, broadcast_apply]
  exact congrArg (max _) Ideal.ofBits_zero_f32

end Cert.KernelIdeal.Body0

end
-- ==== Proof.Region0.lean ====
/-
  The first launch: the messages.

  The message kernel runs over 160 blocks of 2000 edges. Block `t` of each row-wise operand (target rows, source rows,
  edge features, and the result) is rows `2000·t … 2000·t + 1999`; the weights and biases are whole at every point. What
  point `t` writes back is therefore block `t` of ONE array, edge `e`'s message computed from row `e` of the operands
  (`Cert.Spec.messages`), and since the 160 blocks cover the result array, the array ends holding exactly that — provided
  the operands the products see are real-valued, which is what lets each three-pass product be the product.
-/
import proofs.«122586_j43782896615992_2_alg».proof.Proof.Gen.KernelIdeal.Frame
import proofs.«122586_j43782896615992_2_alg».proof.Proof.Body0
import proofs.«122586_j43782896615992_2_alg».proof.Proof.Spec
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Lib
open Idealize.ShloMosaic.Pipeline (Dat)

theorem hz : (![0, 0] : Fin 2 → Nat) = fun _ => 0 := funext fun a => by fin_cases a <;> rfl

/-! ## The weight matrix read by row ranges -/

theorem ldA (x3 : Vec Ideal S528x512 .f32) (k : Fin 256) (j : Fin 512) :
    View.ld x3 r0_0 (ix2 k j) = x3 (ix2 (⟨k.val, by omega⟩ : Fin 528) j) :=
  congrArg x3 (funext fun a => Fin.ext (by
    match a with
    | ⟨0, _⟩ => show 0 + 1 * k.val = k.val; omega
    | ⟨1, _⟩ => show 0 + 1 * j.val = j.val; omega))

theorem ldB (x3 : Vec Ideal S528x512 .f32) (k : Fin 256) (j : Fin 512) :
    View.ld x3 r0_1 (ix2 k j) = x3 (ix2 (⟨256 + k.val, by omega⟩ : Fin 528) j) :=
  congrArg x3 (funext fun a => Fin.ext (by
    match a with
    | ⟨0, _⟩ => show 256 + 1 * k.val = 256 + k.val; omega
    | ⟨1, _⟩ => show 0 + 1 * j.val = j.val; omega))

theorem ldC (x3 : Vec Ideal S528x512 .f32) (k : Fin 16) (j : Fin 512) :
    View.ld x3 r0_2 (ix2 k j) = x3 (ix2 (⟨512 + k.val, by omega⟩ : Fin 528) j) :=
  congrArg x3 (funext fun a => Fin.ext (by
    match a with
    | ⟨0, _⟩ => show 512 + 1 * k.val = 512 + k.val; omega
    | ⟨1, _⟩ => show 0 + 1 * j.val = j.val; omega))

/-! ## One block -/

/-- ENTRY `(p, q)` OF WHAT THE BODY LEAVES: row `p`'s message, from row `p` of the three row-wise blocks. -/
theorem out0_7_apply (x0 x1 : Vec Ideal S2000x256 .f32) (x2 : Vec Ideal S2000x16 .f32) (x3 : Vec Ideal S528x512 .f32)
    (x4 : Vec Ideal S1x512 .f32) (x5 : Vec Ideal S512x256 .f32) (x6 : Vec Ideal S1x256 .f32)
    (h0 : RealValued x0) (h1 : RealValued x1) (h2 : RealValued x2) (h3 : RealValued x3) (h4 : RealValued x4)
    (h5 : RealValued x5) (p : Fin 2000) (q : Fin 256)
    (a b : Fin 256 → EReal) (c : Fin 16 → EReal) (W : (⟨2, ![528, 512]⟩ : Shape).Idx → EReal) (β : Fin 512 → EReal)
    (W₂ : (⟨2, ![512, 256]⟩ : Shape).Idx → EReal) (β₂ : Fin 256 → EReal)
    (ea : Spec.row x0 p = a) (eb : Spec.row x1 p = b) (ec : Spec.row x2 p = c) (eW : x3 = W) (eβ : Spec.row0 x4 = β)
    (eW₂ : x5 = W₂) (eβ₂ : Spec.row0 x6 = β₂) :
    out0_7 (F := Ideal) x0 x1 x2 x3 x4 x5 x6 (ix2 p q) = Spec.message a b c W β W₂ β₂ q := by
  subst ea eb ec eW eβ eW₂ eβ₂
  unfold out0_7
  rw [View.canon_unit_zero hz]
  simp only [View.ld_unit_zero (S := S2000x256) hz, View.ld_unit_zero (S := S2000x16) hz, View.ld_unit_zero (S := S1x512) hz,
    View.ld_unit_zero (S := S512x256) hz, View.ld_unit_zero (S := S1x256) hz]
  have hA : RealValued (View.ld x3 r0_0) := fun y => h3 _
  have hB : RealValued (View.ld x3 r0_1) := fun y => h3 _
  have hC : RealValued (View.ld x3 r0_2) := fun y => h3 _
  rw [Body0.pay1_eq (View.ld x3 r0_2) _ x2 x4 x5 x6 hC (Body0.pay2_real hA hB h0 h1) h2 h4 h5]
  rw [addf_apply, Body0.mm3_apply, Body0.bias_apply]
  unfold Spec.message
  refine congrArg (· + _) (Finset.sum_congr rfl fun j _ => congrArg (· * _) ?_)
  rw [Body0.hid_apply, Body0.pay2_eq _ _ x0 x1 hA hB h0 h1, addf_apply, Body0.mm1_apply, Body0.mm1_apply]
  unfold Spec.hidden3
  refine congrArg (max · 0) (congrArg (· + _) (congrArg₂ (· + ·) (congrArg₂ (· + ·) ?_ ?_) ?_))
  · exact Finset.sum_congr rfl fun k _ => congrArg (_ * ·) (ldA x3 k j)
  · exact Finset.sum_congr rfl fun k _ => congrArg (_ * ·) (ldB x3 k j)
  · exact Finset.sum_congr rfl fun k _ => congrArg (_ * ·) (ldC x3 k j)

/-! ## The launch -/

section
variable (V : (c : Dev nD) → (b : Ref sig .tc) → Buf (Elt Ideal) ((c : Thread nD τ).loc b))

/-- The messages, from the operand arrays as the launch finds them. -/
def G (c : Dev nD) : S320000x256.Idx → EReal :=
  Spec.messages (V c main_v10 : S320000x256.Idx → EReal) (V c main_v17 : S320000x256.Idx → EReal)
    (V c main_arg2 : S320000x16.Idx → EReal) (V c main_arg3 : S528x512.Idx → EReal)
    (Spec.row0 (V c main_v18 : S1x512.Idx → EReal)) (V c main_arg5 : S512x256.Idx → EReal)
    (Spec.row0 (V c main_v19 : S1x256.Idx → EReal))

/-- The printed index maps over the 160 points: the row-wise windows sit at block `(t, 0)`, the others at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT `t` WRITES BACK is block `t` of the messages. -/
theorem flushed_eq (c : Dev nD) (t : Fin cfg0.N)
    (h10 : RealValued (V c main_v10 : S320000x256.Idx → EReal)) (h17 : RealValued (V c main_v17 : S320000x256.Idx → EReal))
    (h2 : RealValued (V c main_arg2 : S320000x16.Idx → EReal)) (h3 : RealValued (V c main_arg3 : S528x512.Idx → EReal))
    (h18 : RealValued (V c main_v18 : S1x512.Idx → EReal)) (h5 : RealValued (V c main_arg5 : S512x256.Idx → EReal)) :
    (dat0 V c).flushed 7 t = ((cfg0.win 7).blk t).view.read (Elt Ideal) (G V c) := by
  show (cfg0.win 7).cut (grid0.coords t) ((dat0 V c).after 7 t) = _
  rw [after0_7]
  obtain ⟨e00, e01, e10, e11, e20, e21, e30, e31, e40, e41, e50, e51, e60, e61, e70, e71⟩ := idx_facts t
  have ht : t.val < 160 := t.isLt
  funext y
  obtain ⟨p, q, rfl⟩ : ∃ (p : Fin 2000) (q : Fin 256), y = ix2 p q := ⟨y 0, y 1, eq_ix2 y⟩
  have hrow : 2000 * t.val + p.val < 320000 := by have := p.isLt; omega
  show out0_7 (F := Ideal) (iblk0 V c 0 t) (iblk0 V c 1 t) (iblk0 V c 2 t) (iblk0 V c 3 t) (iblk0 V c 4 t) (iblk0 V c 5 t)
      (iblk0 V c 6 t) (ix2 p q) = G V c (((cfg0.win 7).blk t).view.emb (ix2 p q))
  have hemb : ((cfg0.win 7).blk t).view.emb (ix2 p q) = ix2 (⟨2000 * t.val + p.val, hrow⟩ : Fin 320000) q := by
    funext a; apply Fin.ext
    match a with
    | ⟨0, _⟩ => show win0_7.index t (0 : Fin 2) * 2000 + 1 * p.val = 2000 * t.val + p.val; omega
    | ⟨1, _⟩ => show win0_7.index t (1 : Fin 2) * 256 + 1 * q.val = q.val; omega
  rw [hemb]
  show _ = Spec.message (Spec.row (V c main_v10 : S320000x256.Idx → EReal) ⟨2000 * t.val + p.val, hrow⟩)
    (Spec.row (V c main_v17 : S320000x256.Idx → EReal) ⟨2000 * t.val + p.val, hrow⟩)
    (Spec.row (V c main_arg2 : S320000x16.Idx → EReal) ⟨2000 * t.val + p.val, hrow⟩)
    (V c main_arg3 : S528x512.Idx → EReal) (Spec.row0 (V c main_v18 : S1x512.Idx → EReal))
    (V c main_arg5 : S512x256.Idx → EReal) (Spec.row0 (V c main_v19 : S1x256.Idx → EReal)) q
  refine out0_7_apply _ _ _ _ _ _ _ (fun y => h10 _) (fun y => h17 _) (fun y => h2 _) (fun y => h3 _) (fun y => h18 _)
    (fun y => h5 _) p q _ _ _ _ _ _ _ ?_ ?_ ?_ ?_ ?_ ?_ ?_
  · funext k
    show (V c main_v10 : S320000x256.Idx → EReal) (((cfg0.win 0).blk t).view.emb (ix2 p k)) = (V c main_v10 : S320000x256.Idx → EReal) (ix2 ⟨2000 * t.val + p.val, hrow⟩ k)
    refine congrArg _ (funext fun a => Fin.ext ?_)
    match a with
    | ⟨0, _⟩ => show win0_0.index t (0 : Fin 2) * 2000 + 1 * p.val = 2000 * t.val + p.val; omega
    | ⟨1, _⟩ => show win0_0.index t (1 : Fin 2) * 256 + 1 * k.val = k.val; omega
  · funext k
    show (V c main_v17 : S320000x256.Idx → EReal) (((cfg0.win 1).blk t).view.emb (ix2 p k)) = (V c main_v17 : S320000x256.Idx → EReal) (ix2 ⟨2000 * t.val + p.val, hrow⟩ k)
    refine congrArg _ (funext fun a => Fin.ext ?_)
    match a with
    | ⟨0, _⟩ => show win0_1.index t (0 : Fin 2) * 2000 + 1 * p.val = 2000 * t.val + p.val; omega
    | ⟨1, _⟩ => show win0_1.index t (1 : Fin 2) * 256 + 1 * k.val = k.val; omega
  · funext k
    show (V c main_arg2 : S320000x16.Idx → EReal) (((cfg0.win 2).blk t).view.emb (ix2 p k)) = (V c main_arg2 : S320000x16.Idx → EReal) (ix2 ⟨2000 * t.val + p.val, hrow⟩ k)
    refine congrArg _ (funext fun a => Fin.ext ?_)
    match a with
    | ⟨0, _⟩ => show win0_2.index t (0 : Fin 2) * 2000 + 1 * p.val = 2000 * t.val + p.val; omega
    | ⟨1, _⟩ => show win0_2.index t (1 : Fin 2) * 16 + 1 * k.val = k.val; omega
  · funext z
    show (V c main_arg3 : S528x512.Idx → EReal) (((cfg0.win 3).blk t).view.emb z) = (V c main_arg3 : S528x512.Idx → EReal) z
    refine congrArg _ (funext fun a => Fin.ext ?_)
    match a with
    | ⟨0, _⟩ => show win0_3.index t (0 : Fin 2) * 528 + 1 * (z 0).val = (z 0).val; omega
    | ⟨1, _⟩ => show win0_3.index t (1 : Fin 2) * 512 + 1 * (z 1).val = (z 1).val; omega
  · funext j
    show (V c main_v18 : S1x512.Idx → EReal) (((cfg0.win 4).blk t).view.emb (ix2 (0 : Fin 1) j)) = (V c main_v18 : S1x512.Idx → EReal) (ix2 (0 : Fin 1) j)
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * j.val = j.val; omega
  · funext z
    show (V c main_arg5 : S512x256.Idx → EReal) (((cfg0.win 5).blk t).view.emb z) = (V c main_arg5 : S512x256.Idx → EReal) z
    refine congrArg _ (funext fun a => Fin.ext ?_)
    match a with
    | ⟨0, _⟩ => show win0_5.index t (0 : Fin 2) * 512 + 1 * (z 0).val = (z 0).val; omega
    | ⟨1, _⟩ => show win0_5.index t (1 : Fin 2) * 256 + 1 * (z 1).val = (z 1).val; omega
  · funext j
    show (V c main_v19 : S1x256.Idx → EReal) (((cfg0.win 6).blk t).view.emb (ix2 (0 : Fin 1) j)) = (V c main_v19 : S1x256.Idx → EReal) (ix2 (0 : Fin 1) j)
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * j.val = j.val; omega

/-- An index of the result array is in point `t`'s block iff each coordinate is in the block's range on its axis. -/
theorem mem_blk (t : Fin cfg0.N) (i : S320000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v20).slice (win0_7.rect t)).set ↔ _
  rw [View.set_slice_whole, Rect.mem_set_unit]
  exact Iff.rfl

/-- Every edge's row is in the block of the point `e / 2000`. -/
theorem cover (i : S320000x256.Idx) : ∃ t : Fin cfg0.N, (cfg0.win 7).flush t = true ∧ i ∈ ((cfg0.win 7).blk t).view.set := by
  have hi0 : (i 0).val < 320000 := (i 0).isLt
  have hi1 : (i 1).val < 256 := (i 1).isLt
  have ht : (i 0).val / 2000 < 160 := by omega
  obtain ⟨-, -, -, -, -, -, -, -, -, -, -, -, -, -, e70, e71⟩ := idx_facts (⟨(i 0).val / 2000, ht⟩ : Fin cfg0.N)
  refine ⟨⟨(i 0).val / 2000, ht⟩, flush0_7 _, ?_⟩
  rw [mem_blk]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win0_7.index ⟨(i 0).val / 2000, ht⟩ (1 : Fin 2) * 256 ≤ (i 1).val ∧ (i 1).val < win0_7.index ⟨(i 0).val / 2000, ht⟩ (1 : Fin 2) * 256 + 256
    rw [e71]
    omega

/-- THE RESULT ARRAY AFTER THE LAUNCH: the messages. -/
theorem final (c : Dev nD)
    (h10 : RealValued (V c main_v10 : S320000x256.Idx → EReal)) (h17 : RealValued (V c main_v17 : S320000x256.Idx → EReal))
    (h2 : RealValued (V c main_arg2 : S320000x16.Idx → EReal)) (h3 : RealValued (V c main_arg3 : S528x512.Idx → EReal))
    (h18 : RealValued (V c main_v18 : S1x512.Idx → EReal)) (h5 : RealValued (V c main_arg5 : S512x256.Idx → EReal)) :
    (dat0 V c).arrAt 7 cfg0.N = G V c :=
  (dat0 V c).arrAt_eq_of_cover 7 (G V c) (fun t _ => flushed_eq V c t h10 h17 h2 h3 h18 h5) cover

end

end Cert.KernelIdeal.Region0

end
-- ==== Proof.Body1.lean ====
/-
  The update kernel's block, entry by entry.

  On one block of 2000 nodes the kernel holds the feature rows `x`, the aggregated-message rows `g`, the two row ranges
  `A`, `B` of the first layer's weights, the bias row `γ`, the second layer's weights `U₂` and its bias row `γ₂`. As in the
  message kernel every product is three passes over operands split as `v = v + (v - v)`, which on real-valued operands
  are the one product. The block's entry `(p, q)` is
  `x(p,q) + (Σ_j relu (Σ_k x(p,k)·A(k,j) + Σ_k g(p,k)·B(k,j) + γ(j)) · U₂(j,q) + γ₂(q))`.
-/
import proofs.«122586_j43782896615992_2_alg».proof.Proof.Gen.KernelIdeal.Skeleton
import proofs.«122586_j43782896615992_2_alg».proof.Proof.LibThreePasses
import Idealize.ShloMosaic.Lib.Pipeline.Value
import Idealize.ShloMosaic.Lib.ValueLayout

noncomputable section

open scoped BigOperators

namespace Cert.KernelIdeal.Body1

open Cert.KernelIdeal Cert.KernelIdeal.Gen Idealize.ShloMosaic Idealize.ShloMosaic.ValueIdx Cert.Lib

/-- The hidden layer of a block, every product one product. -/
def hid (v0 v1 : FVec Ideal S256x512 .f32) (v2 v16 : FVec Ideal S2000x256 .f32) (v32 : FVec Ideal S1x512 .f32) :
    FVec Ideal S2000x512 .f32 :=
  maximumf (addf (addf (matmul dot_S2000x256_S256x512_S2000x512_1_0_0_1_n_n none v2 v0 (constant S2000x512 .f32 0x00000000#32))
      (matmul dot_S2000x256_S256x512_S2000x512_1_0_0_1_n_n none v16 v1 (constant S2000x512 .f32 0x00000000#32)))
    (broadcastTo S2000x512 (shapeCast S1x512 v32 shapeCasts_S1x512_S1x512) broadcasts_S1x512_S2000x512))
    (broadcast S2000x512 (Scalar.ofBits (F := Ideal) .f32 0x00000000#32))

theorem hid_real {v0 v1 : FVec Ideal S256x512 .f32} {v2 v16 : FVec Ideal S2000x256 .f32} {v32 : FVec Ideal S1x512 .f32}
    (h0 : RealValued v0) (h1 : RealValued v1) (h2 : RealValued v2) (h16 : RealValued v16) (h32 : RealValued v32) :
    RealValued (hid v0 v1 v2 v16 v32) := fun i => by
  unfold hid
  rw [maximumf_apply, addf_apply, addf_apply, shapeCast_self]
  refine IsReal.max (IsReal.add (IsReal.add (realValued_matmul _ none v2 v0 h2 h0 i) (realValued_matmul _ none v16 v1 h16 h1 i)) ?_) ?_
  · unfold broadcastTo
    exact h32 _
  · exact ⟨0, Ideal.ofBits_zero_f32⟩

/-- The first layer: its two products, each in three passes, are the two products. -/
theorem pay2_eq (v0 v1 : FVec Ideal S256x512 .f32) (v2 v16 : FVec Ideal S2000x256 .f32) (v32 : FVec Ideal S1x512 .f32)
    (h0 : RealValued v0) (h1 : RealValued v1) (h2 : RealValued v2) (h16 : RealValued v16) :
    k1_pay2 (F := Ideal) v0 v1 v2 v16 v32 = hid v0 v1 v2 v16 v32 := by
  unfold k1_pay2 hid
  simp only [shapeCast_self]
  rw [matmul_three_passes _ none v2 v0 h2 h0, matmul_three_passes _ none v16 v1 h16 h1]

/-- The stored block: the feature rows plus the second layer's one product of the hidden layer and its bias row. -/
theorem pay1_eq (v0 v1 : FVec Ideal S256x512 .f32) (v2 v16 : FVec Ideal S2000x256 .f32) (v32 : FVec Ideal S1x512 .f32)
    (v38 : FVec Ideal S512x256 .f32) (v52 : FVec Ideal S1x256 .f32) (v56 : FVec Ideal S2000x256 .f32)
    (h0 : RealValued v0) (h1 : RealValued v1) (h2 : RealValued v2) (h16 : RealValued v16) (h32 : RealValued v32)
    (h38 : RealValued v38) :
    k1_pay1 (F := Ideal) (k1_pay2 v0 v1 v2 v16 v32) v38 (k1_pay3 v0 v1 v2 v16 v32) v52 v56
      = addf v56 (addf (matmul dot_S2000x512_S512x256_S2000x256_1_0_0_1_n_n none (hid v0 v1 v2 v16 v32) v38 (constant S2000x256 .f32 0x00000000#32))
             (broadcastTo S2000x256 (shapeCast S1x256 v52 shapeCasts_S1x256_S1x256) broadcasts_S1x256_S2000x256)) := by
  unfold k1_pay1 k1_pay3
  simp only []
  rw [pay2_eq v0 v1 v2 v16 v32 h0 h1 h2 h16]
  exact congrArg (fun z => addf v56 (addf z _))
    (matmul_three_passes _ none (hid v0 v1 v2 v16 v32) v38 (hid_real h0 h1 h2 h16 h32) h38 _)

end Cert.KernelIdeal.Body1

end
-- ==== Proof.Region1.lean ====
/-
  The second launch: the updated rows.

  The update kernel runs over 5 blocks of 2000 nodes. Block `t` of each row-wise operand (the node features, the
  aggregated messages, and the result) is rows `2000·t … 2000·t + 1999`; the weights and biases are whole at every
  point. What point `t` writes back is therefore block `t` of ONE array, node `n`'s updated row computed from row `n` of
  the features and of the aggregated messages (`Cert.Spec.updated`), and since the 5 blocks cover the result array, the
  array ends holding exactly that — provided the operands the products see are real-valued, which is what lets each
  three-pass product be the product.
-/
import proofs.«122586_j43782896615992_2_alg».proof.Proof.Gen.KernelIdeal.Frame
import proofs.«122586_j43782896615992_2_alg».proof.Proof.Body0
import proofs.«122586_j43782896615992_2_alg».proof.Proof.Body1
import proofs.«122586_j43782896615992_2_alg».proof.Proof.Spec
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Lib
open Idealize.ShloMosaic.Pipeline (Dat)

theorem hz : (![0, 0] : Fin 2 → Nat) = fun _ => 0 := funext fun a => by fin_cases a <;> rfl

/-! ## The weight matrix read by row ranges -/

theorem ldA (x2 : Vec Ideal S512x512 .f32) (k : Fin 256) (j : Fin 512) :
    View.ld x2 r1_0 (ix2 k j) = x2 (ix2 (⟨k.val, by omega⟩ : Fin 512) j) :=
  congrArg x2 (funext fun a => Fin.ext (by
    match a with
    | ⟨0, _⟩ => show 0 + 1 * k.val = k.val; omega
    | ⟨1, _⟩ => show 0 + 1 * j.val = j.val; omega))

theorem ldB (x2 : Vec Ideal S512x512 .f32) (k : Fin 256) (j : Fin 512) :
    View.ld x2 r1_1 (ix2 k j) = x2 (ix2 (⟨256 + k.val, by omega⟩ : Fin 512) j) :=
  congrArg x2 (funext fun a => Fin.ext (by
    match a with
    | ⟨0, _⟩ => show 256 + 1 * k.val = 256 + k.val; omega
    | ⟨1, _⟩ => show 0 + 1 * j.val = j.val; omega))

/-! ## One block -/

/-- The hidden layer at an entry: the two products' sums, the bias, clipped below at 0. -/
theorem hid_apply (v0 v1 : FVec Ideal S256x512 .f32) (v2 v16 : FVec Ideal S2000x256 .f32) (v32 : FVec Ideal S1x512 .f32)
    (p : Fin 2000) (j : Fin 512) :
    Body1.hid v0 v1 v2 v16 v32 (ix2 p j)
      = max ((∑ k : Fin 256, v2 (ix2 p k) * v0 (ix2 k j) + ∑ k : Fin 256, v16 (ix2 p k) * v1 (ix2 k j))
          + v32 (ix2 (0 : Fin 1) j)) 0 := by
  unfold Body1.hid
  rw [maximumf_apply, addf_apply, addf_apply, Body0.mm1_apply, Body0.mm1_apply, Body0.bias_apply, broadcast_apply]
  exact congrArg (max _) Ideal.ofBits_zero_f32

/-- ENTRY `(p, q)` OF WHAT THE BODY LEAVES: row `p`'s update, from row `p` of the two row-wise blocks. -/
theorem out1_6_apply (x0 x1 : Vec Ideal S2000x256 .f32) (x2 : Vec Ideal S512x512 .f32) (x3 : Vec Ideal S1x512 .f32)
    (x4 : Vec Ideal S512x256 .f32) (x5 : Vec Ideal S1x256 .f32)
    (h0 : RealValued x0) (h1 : RealValued x1) (h2 : RealValued x2) (h3 : RealValued x3) (h4 : RealValued x4)
    (p : Fin 2000) (q : Fin 256)
    (x g : Fin 256 → EReal) (U : (⟨2, ![512, 512]⟩ : Shape).Idx → EReal) (γ : Fin 512 → EReal)
    (U₂ : (⟨2, ![512, 256]⟩ : Shape).Idx → EReal) (γ₂ : Fin 256 → EReal)
    (ex : Spec.row x0 p = x) (eg : Spec.row x1 p = g) (eU : x2 = U) (eγ : Spec.row0 x3 = γ)
    (eU₂ : x4 = U₂) (eγ₂ : Spec.row0 x5 = γ₂) :
    out1_6 (F := Ideal) x0 x1 x2 x3 x4 x5 (ix2 p q) = Spec.update x g U γ U₂ γ₂ q := by
  subst ex eg eU eγ eU₂ eγ₂
  unfold out1_6
  rw [View.canon_unit_zero hz]
  simp only [View.ld_unit_zero (S := S2000x256) hz, View.ld_unit_zero (S := S1x512) hz,
    View.ld_unit_zero (S := S512x256) hz, View.ld_unit_zero (S := S1x256) hz]
  have hA : RealValued (View.ld x2 r1_0) := fun y => h2 _
  have hB : RealValued (View.ld x2 r1_1) := fun y => h2 _
  rw [Body1.pay1_eq (View.ld x2 r1_0) (View.ld x2 r1_1) x0 x1 x3 x4 x5 x0 hA hB h0 h1 h3 h4]
  rw [addf_apply, addf_apply, Body0.mm3_apply, Body0.bias_apply]
  unfold Spec.update
  refine congrArg (_ + ·) (congrArg (· + _) (Finset.sum_congr rfl fun j _ => congrArg (· * _) ?_))
  rw [hid_apply]
  unfold Spec.hidden2
  refine congrArg (max · 0) (congrArg (· + _) (congrArg₂ (· + ·) ?_ ?_))
  · exact Finset.sum_congr rfl fun k _ => congrArg (_ * ·) (ldA x2 k j)
  · exact Finset.sum_congr rfl fun k _ => congrArg (_ * ·) (ldB x2 k j)

/-! ## The launch -/

section
variable (V : (c : Dev nD) → (b : Ref sig .tc) → Buf (Elt Ideal) ((c : Thread nD τ).loc b))

/-- The updated rows, from the operand arrays as the launch finds them. -/
def G (c : Dev nD) : S10000x256.Idx → EReal :=
  Spec.updated (V c main_arg0 : S10000x256.Idx → EReal) (V c main_v23 : S10000x256.Idx → EReal)
    (V c main_arg7 : S512x512.Idx → EReal) (Spec.row0 (V c main_v24 : S1x512.Idx → EReal))
    (V c main_arg9 : S512x256.Idx → EReal) (Spec.row0 (V c main_v25 : S1x256.Idx → EReal))

/-- The printed index maps over the 5 points: the row-wise windows sit at block `(t, 0)`, the others at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the updated rows. -/
theorem flushed_eq (c : Dev nD) (t : Fin cfg1.N)
    (h0 : RealValued (V c main_arg0 : S10000x256.Idx → EReal)) (h23 : RealValued (V c main_v23 : S10000x256.Idx → EReal))
    (h7 : RealValued (V c main_arg7 : S512x512.Idx → EReal)) (h24 : RealValued (V c main_v24 : S1x512.Idx → EReal))
    (h9 : RealValued (V c main_arg9 : S512x256.Idx → EReal)) :
    (dat1 V c).flushed 6 t = ((cfg1.win 6).blk t).view.read (Elt Ideal) (G V c) := by
  show (cfg1.win 6).cut (grid1.coords t) ((dat1 V c).after 6 t) = _
  rw [after1_6]
  obtain ⟨e00, e01, e10, e11, e20, e21, e30, e31, e40, e41, e50, e51, e60, e61⟩ := idx_facts t
  have ht : t.val < 5 := t.isLt
  funext y
  obtain ⟨p, q, rfl⟩ : ∃ (p : Fin 2000) (q : Fin 256), y = ix2 p q := ⟨y 0, y 1, eq_ix2 y⟩
  have hrow : 2000 * t.val + p.val < 10000 := by have := p.isLt; omega
  show out1_6 (F := Ideal) (iblk1 V c 0 t) (iblk1 V c 1 t) (iblk1 V c 2 t) (iblk1 V c 3 t) (iblk1 V c 4 t) (iblk1 V c 5 t)
      (ix2 p q) = G V c (((cfg1.win 6).blk t).view.emb (ix2 p q))
  have hemb : ((cfg1.win 6).blk t).view.emb (ix2 p q) = ix2 (⟨2000 * t.val + p.val, hrow⟩ : Fin 10000) q := by
    funext a; apply Fin.ext
    match a with
    | ⟨0, _⟩ => show win1_6.index t (0 : Fin 2) * 2000 + 1 * p.val = 2000 * t.val + p.val; omega
    | ⟨1, _⟩ => show win1_6.index t (1 : Fin 2) * 256 + 1 * q.val = q.val; omega
  rw [hemb]
  show _ = Spec.update (Spec.row (V c main_arg0 : S10000x256.Idx → EReal) ⟨2000 * t.val + p.val, hrow⟩)
    (Spec.row (V c main_v23 : S10000x256.Idx → EReal) ⟨2000 * t.val + p.val, hrow⟩)
    (V c main_arg7 : S512x512.Idx → EReal) (Spec.row0 (V c main_v24 : S1x512.Idx → EReal))
    (V c main_arg9 : S512x256.Idx → EReal) (Spec.row0 (V c main_v25 : S1x256.Idx → EReal)) q
  refine out1_6_apply _ _ _ _ _ _ (fun y => h0 _) (fun y => h23 _) (fun y => h7 _) (fun y => h24 _) (fun y => h9 _)
    p q _ _ _ _ _ _ ?_ ?_ ?_ ?_ ?_ ?_
  · funext k
    show (V c main_arg0 : S10000x256.Idx → EReal) (((cfg1.win 0).blk t).view.emb (ix2 p k)) = (V c main_arg0 : S10000x256.Idx → EReal) (ix2 ⟨2000 * t.val + p.val, hrow⟩ k)
    refine congrArg _ (funext fun a => Fin.ext ?_)
    match a with
    | ⟨0, _⟩ => show win1_0.index t (0 : Fin 2) * 2000 + 1 * p.val = 2000 * t.val + p.val; omega
    | ⟨1, _⟩ => show win1_0.index t (1 : Fin 2) * 256 + 1 * k.val = k.val; omega
  · funext k
    show (V c main_v23 : S10000x256.Idx → EReal) (((cfg1.win 1).blk t).view.emb (ix2 p k)) = (V c main_v23 : S10000x256.Idx → EReal) (ix2 ⟨2000 * t.val + p.val, hrow⟩ k)
    refine congrArg _ (funext fun a => Fin.ext ?_)
    match a with
    | ⟨0, _⟩ => show win1_1.index t (0 : Fin 2) * 2000 + 1 * p.val = 2000 * t.val + p.val; omega
    | ⟨1, _⟩ => show win1_1.index t (1 : Fin 2) * 256 + 1 * k.val = k.val; omega
  · funext z
    show (V c main_arg7 : S512x512.Idx → EReal) (((cfg1.win 2).blk t).view.emb z) = (V c main_arg7 : S512x512.Idx → EReal) z
    refine congrArg _ (funext fun a => Fin.ext ?_)
    match a with
    | ⟨0, _⟩ => show win1_2.index t (0 : Fin 2) * 512 + 1 * (z 0).val = (z 0).val; omega
    | ⟨1, _⟩ => show win1_2.index t (1 : Fin 2) * 512 + 1 * (z 1).val = (z 1).val; omega
  · funext j
    show (V c main_v24 : S1x512.Idx → EReal) (((cfg1.win 3).blk t).view.emb (ix2 (0 : Fin 1) j)) = (V c main_v24 : S1x512.Idx → EReal) (ix2 (0 : Fin 1) j)
    refine congrArg _ (funext fun a => Fin.ext ?_)
    match a with
    | ⟨0, _⟩ => show win1_3.index t (0 : Fin 2) * 1 + 1 * 0 = 0; omega
    | ⟨1, _⟩ => show win1_3.index t (1 : Fin 2) * 512 + 1 * j.val = j.val; omega
  · funext z
    show (V c main_arg9 : S512x256.Idx → EReal) (((cfg1.win 4).blk t).view.emb z) = (V c main_arg9 : S512x256.Idx → EReal) z
    refine congrArg _ (funext fun a => Fin.ext ?_)
    match a with
    | ⟨0, _⟩ => show win1_4.index t (0 : Fin 2) * 512 + 1 * (z 0).val = (z 0).val; omega
    | ⟨1, _⟩ => show win1_4.index t (1 : Fin 2) * 256 + 1 * (z 1).val = (z 1).val; omega
  · funext j
    show (V c main_v25 : S1x256.Idx → EReal) (((cfg1.win 5).blk t).view.emb (ix2 (0 : Fin 1) j)) = (V c main_v25 : S1x256.Idx → EReal) (ix2 (0 : Fin 1) j)
    refine congrArg _ (funext fun a => Fin.ext ?_)
    match a with
    | ⟨0, _⟩ => show win1_5.index t (0 : Fin 2) * 1 + 1 * 0 = 0; omega
    | ⟨1, _⟩ => show win1_5.index t (1 : Fin 2) * 256 + 1 * j.val = j.val; omega

/-- An index of the result array is in point `t`'s block iff each coordinate is in the block's range on its axis. -/
theorem mem_blk (t : Fin cfg1.N) (i : S10000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v26).slice (win1_6.rect t)).set ↔ _
  rw [View.set_slice_whole, Rect.mem_set_unit]
  exact Iff.rfl

/-- Every node's row is in the block of the point `n / 2000`. -/
theorem cover (i : S10000x256.Idx) : ∃ t : Fin cfg1.N, (cfg1.win 6).flush t = true ∧ i ∈ ((cfg1.win 6).blk t).view.set := by
  have hi0 : (i 0).val < 10000 := (i 0).isLt
  have hi1 : (i 1).val < 256 := (i 1).isLt
  have ht : (i 0).val / 2000 < 5 := by omega
  obtain ⟨-, -, -, -, -, -, -, -, -, -, -, -, e60, e61⟩ := idx_facts (⟨(i 0).val / 2000, ht⟩ : Fin cfg1.N)
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    rw [e61]
    omega

/-- THE RESULT ARRAY AFTER THE LAUNCH: the updated rows. -/
theorem final (c : Dev nD)
    (h0 : RealValued (V c main_arg0 : S10000x256.Idx → EReal)) (h23 : RealValued (V c main_v23 : S10000x256.Idx → EReal))
    (h7 : RealValued (V c main_arg7 : S512x512.Idx → EReal)) (h24 : RealValued (V c main_v24 : S1x512.Idx → EReal))
    (h9 : RealValued (V c main_arg9 : S512x256.Idx → EReal)) :
    (dat1 V c).arrAt 6 cfg1.N = G V c :=
  (dat1 V c).arrAt_eq_of_cover 6 (G V c) (fun t _ => flushed_eq V c t h0 h23 h7 h24 h9) cover

end

end Cert.KernelIdeal.Region1

end
-- ==== Proof.LibConcat3.lean ====
/-
  Three arrays laid side by side along the columns, read at an entry.

  The concatenation along axis 1 of `y0 : [B, n0]`, `y1 : [B, n1]` and `y2 : [B, n2]` is an `[B, N]` array,
  `N = n0 + n1 + n2`. At row `b` and column `n` it reads `y0 (b, n)` for `n < n0`, `y1 (b, n - n0)` for the next `n1`
  columns and `y2 (b, n - (n0 + n1))` for the last `n2`.
-/
import Idealize.ShloMosaic.Lib.Pipeline.Value
import Idealize.ShloMosaic.Lib.ValueIdx

noncomputable section

namespace Cert.Lib

open Idealize.ShloMosaic Idealize.ShloMosaic.ValueIdx

section
variable {α : Type} {B N n0 n1 n2 : ℕ}
  (y0 : (⟨2, ![B, n0]⟩ : Shape).Idx → α) (y1 : (⟨2, ![B, n1]⟩ : Shape).Idx → α) (y2 : (⟨2, ![B, n2]⟩ : Shape).Idx → α)
  (h : Shape.Concatenates [(⟨2, ![B, n0]⟩ : Shape), ⟨2, ![B, n1]⟩, ⟨2, ![B, n2]⟩] ⟨2, ![B, N]⟩ 1)

/-- A column among the first `n0` reads the first array. -/
theorem concat3_apply_first (b : Fin B) (n : Fin N) (q : Fin n0) (hn : n.val = q.val) :
    concatenate ⟨2, ![B, N]⟩ 1 [⟨⟨2, ![B, n0]⟩, y0⟩, ⟨⟨2, ![B, n1]⟩, y1⟩, ⟨⟨2, ![B, n2]⟩, y2⟩] h (ix2 b n) = y0 (ix2 b q) := by
  refine concatenate_apply_piece (t := ⟨2, ![B, N]⟩) (1 : Fin 2) [(⟨⟨2, ![B, n0]⟩, y0⟩ : (s : Shape) × (s.Idx → α)), ⟨⟨2, ![B, n1]⟩, y1⟩, ⟨⟨2, ![B, n2]⟩, y2⟩] h (ix2 b n) 0
    (by show (0 : ℕ) < 3; decide) ⟨2, ![B, n0]⟩ y0 rfl rfl 0 rfl (ix2 b q) ?_ ?_
  · intro b' hb'
    match b' with
    | ⟨0, _⟩ => rfl
    | ⟨1, _⟩ => exact absurd rfl hb'
  · show 0 + q.val = n.val
    omega

/-- A column among the next `n1` reads the second array, `n0` columns back. -/
theorem concat3_apply_second (b : Fin B) (n : Fin N) (j : Fin n1) (hn : n.val = n0 + j.val) :
    concatenate ⟨2, ![B, N]⟩ 1 [⟨⟨2, ![B, n0]⟩, y0⟩, ⟨⟨2, ![B, n1]⟩, y1⟩, ⟨⟨2, ![B, n2]⟩, y2⟩] h (ix2 b n) = y1 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩, ⟨⟨2, ![B, n2]⟩, y2⟩] h (ix2 b n) 1
    (by show (1 : ℕ) < 3; decide) ⟨2, ![B, n1]⟩ y1 rfl rfl n0 ?_ (ix2 b j) ?_ ?_
  · show n0 + 0 = n0
    rfl
  · intro b' hb'
    match b' with
    | ⟨0, _⟩ => rfl
    | ⟨1, _⟩ => exact absurd rfl hb'
  · show n0 + j.val = n.val
    omega

/-- A column among the last `n2` reads the third array, `n0 + n1` columns back. -/
theorem concat3_apply_third (b : Fin B) (n : Fin N) (j : Fin n2) (hn : n.val = n0 + n1 + j.val) :
    concatenate ⟨2, ![B, N]⟩ 1 [⟨⟨2, ![B, n0]⟩, y0⟩, ⟨⟨2, ![B, n1]⟩, y1⟩, ⟨⟨2, ![B, n2]⟩, y2⟩] h (ix2 b n) = y2 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩, ⟨⟨2, ![B, n2]⟩, y2⟩] h (ix2 b n) 2
    (by show (2 : ℕ) < 3; decide) ⟨2, ![B, n2]⟩ y2 rfl rfl (n0 + n1) ?_ (ix2 b j) ?_ ?_
  · show n0 + (n1 + 0) = n0 + n1
    rfl
  · intro b' hb'
    match b' with
    | ⟨0, _⟩ => rfl
    | ⟨1, _⟩ => exact absurd rfl hb'
  · show n0 + n1 + j.val = n.val
    omega

/-- THE THREE RANGES AT ONCE: column `n` by cases on where it falls (`n01` names `n0 + n1`; the last alternative is never
    reached, so any value `z` may stand there). -/
theorem concat3_apply (hN : N = n0 + n1 + n2) (n01 : ℕ) (h01 : n01 = n0 + n1) (z : α) (b : Fin B) (n : Fin N) :
    concatenate ⟨2, ![B, N]⟩ 1 [⟨⟨2, ![B, n0]⟩, y0⟩, ⟨⟨2, ![B, n1]⟩, y1⟩, ⟨⟨2, ![B, n2]⟩, y2⟩] h (ix2 b n)
      = if h0 : n.val < n0 then y0 (ix2 b ⟨n.val, h0⟩)
        else if h1 : n.val - n0 < n1 then y1 (ix2 b ⟨n.val - n0, h1⟩)
        else if h2 : n.val - n01 < n2 then y2 (ix2 b ⟨n.val - n01, h2⟩)
        else z := by
  by_cases h0 : n.val < n0
  · rw [dif_pos h0]
    exact concat3_apply_first y0 y1 y2 h b n ⟨n.val, h0⟩ rfl
  · rw [dif_neg h0]
    by_cases h1 : n.val - n0 < n1
    · rw [dif_pos h1]
      exact concat3_apply_second y0 y1 y2 h b n ⟨n.val - n0, h1⟩ (by show n.val = n0 + (n.val - n0); omega)
    · rw [dif_neg h1]
      have h2 : n.val - n01 < n2 := by have := n.isLt; omega
      rw [dif_pos h2]
      exact concat3_apply_third y0 y1 y2 h b n ⟨n.val - n01, h2⟩ (by show n.val = n0 + n1 + (n.val - n01); omega)

end

end Cert.Lib

end
-- ==== Proof.LibConcat2.lean ====
/-
  Two arrays laid side by side along the columns, read at an entry.

  The concatenation along axis 1 of `y0 : [B, n0]` and `y1 : [B, n1]` is an `[B, N]` array, `N = n0 + n1`. At row `b`
  and column `n` it reads `y0 (b, n)` for `n < n0` and `y1 (b, n - n0)` for the remaining `n1` columns.
-/
import Idealize.ShloMosaic.Lib.Pipeline.Value
import Idealize.ShloMosaic.Lib.ValueIdx

noncomputable section

namespace Cert.Lib

open Idealize.ShloMosaic Idealize.ShloMosaic.ValueIdx

section
variable {α : Type} {B N n0 n1 : ℕ}
  (y0 : (⟨2, ![B, n0]⟩ : Shape).Idx → α) (y1 : (⟨2, ![B, n1]⟩ : Shape).Idx → α)
  (h : Shape.Concatenates [(⟨2, ![B, n0]⟩ : Shape), ⟨2, ![B, n1]⟩] ⟨2, ![B, N]⟩ 1)

/-- A column among the first `n0` reads the first array. -/
theorem concat2_apply_first (b : Fin B) (n : Fin N) (q : Fin n0) (hn : n.val = q.val) :
    concatenate ⟨2, ![B, N]⟩ 1 [⟨⟨2, ![B, n0]⟩, y0⟩, ⟨⟨2, ![B, n1]⟩, y1⟩] h (ix2 b n) = y0 (ix2 b q) := by
  refine concatenate_apply_piece (t := ⟨2, ![B, N]⟩) (1 : Fin 2) [(⟨⟨2, ![B, n0]⟩, y0⟩ : (s : Shape) × (s.Idx → α)), ⟨⟨2, ![B, n1]⟩, y1⟩] h (ix2 b n) 0
    (by show (0 : ℕ) < 2; decide) ⟨2, ![B, n0]⟩ y0 rfl rfl 0 rfl (ix2 b q) ?_ ?_
  · intro b' hb'
    match b' with
    | ⟨0, _⟩ => rfl
    | ⟨1, _⟩ => exact absurd rfl hb'
  · show 0 + q.val = n.val
    omega

/-- A column among the last `n1` reads the second array, `n0` columns back. -/
theorem concat2_apply_second (b : Fin B) (n : Fin N) (j : Fin n1) (hn : n.val = n0 + j.val) :
    concatenate ⟨2, ![B, N]⟩ 1 [⟨⟨2, ![B, n0]⟩, y0⟩, ⟨⟨2, ![B, n1]⟩, y1⟩] h (ix2 b n) = y1 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩] h (ix2 b n) 1
    (by show (1 : ℕ) < 2; decide) ⟨2, ![B, n1]⟩ y1 rfl rfl n0 ?_ (ix2 b j) ?_ ?_
  · show n0 + 0 = n0
    rfl
  · intro b' hb'
    match b' with
    | ⟨0, _⟩ => rfl
    | ⟨1, _⟩ => exact absurd rfl hb'
  · show n0 + j.val = n.val
    omega

end

end Cert.Lib

end
-- ==== Proof.LibSumSplit.lean ====
/-
  A finite sum over `0, …, N - 1` cut into consecutive ranges.

  When `N = n0 + n1`, the sum of `f` over `Fin N` is the sum over the first `n0` indices plus the sum over the last
  `n1`, the latter indexed from `0` with `n0` added back; when `N = n0 + n1 + n2` it is the three consecutive ranges'
  sums, associated to the left. The summands are written at indices `⟨k⟩`, `⟨n0 + k⟩`, `⟨n01 + k⟩` (`n01` names
  `n0 + n1`, so that a literal can stand for it).
-/
import Mathlib.Algebra.BigOperators.Fin

open scoped BigOperators

namespace Cert.Lib

/-- Two consecutive ranges. -/
theorem sum_fin_split2 {M : Type} [AddCommMonoid M] (n0 n1 N : ℕ) (hN : N = n0 + n1) (f : Fin N → M) :
    ∑ k : Fin N, f k
      = (∑ k : Fin n0, f ⟨k.val, by have := k.isLt; omega⟩)
        + (∑ k : Fin n1, f ⟨n0 + k.val, by have := k.isLt; omega⟩) := by
  subst hN
  rw [Fin.sum_univ_add]
  rfl

/-- Three consecutive ranges, the first two grouped together. -/
theorem sum_fin_split3 {M : Type} [AddCommMonoid M] (n0 n1 n2 N : ℕ) (hN : N = n0 + n1 + n2)
    (n01 : ℕ) (h01 : n01 = n0 + n1) (f : Fin N → M) :
    ∑ k : Fin N, f k
      = ((∑ k : Fin n0, f ⟨k.val, by have := k.isLt; omega⟩)
          + (∑ k : Fin n1, f ⟨n0 + k.val, by have := k.isLt; omega⟩))
        + (∑ k : Fin n2, f ⟨n01 + k.val, by have := k.isLt; omega⟩) := by
  subst hN h01
  rw [Fin.sum_univ_add, Fin.sum_univ_add]
  rfl

end Cert.Lib
-- ==== Proof.RefValue.lean ====
/-
  The reference program's value, in closed form.

  The reference computes, for every edge, a MESSAGE from three feature rows laid side by side — the target node's row
  (256 wide), the source node's row (256 wide) and the edge's own row (16 wide) — as a product of that 528-wide row with
  a 528 × 512 matrix, plus a bias, clipped below at 0, then multiplied by a 512 × 256 matrix, plus a second bias. A
  product with a side-by-side concatenation is a sum over the 528 columns; the columns 0–255, 256–511 and 512–527 read
  the three pieces in turn, so the sum is the sum of three sums, each a piece's row against the matching range of the
  matrix's rows. That is the message perceptron of the specification, row by row, with the same association of the sums.

  In the same way every node's UPDATED row is its own row plus a perceptron of its row and its aggregated messages laid
  side by side (512 = 256 + 256 columns).

  The two gathered arrays and the aggregated messages are not looked into: they enter only as arrays that are read.
  No hypothesis on the values is needed: both sides are the same expression of sums, products and maxima.
-/
import proofs.«122586_j43782896615992_2_alg».proof.Proof.Gen.ReferenceIdeal.Read
import proofs.«122586_j43782896615992_2_alg».proof.Proof.Spec
import proofs.«122586_j43782896615992_2_alg».proof.Proof.LibConcat3
import proofs.«122586_j43782896615992_2_alg».proof.Proof.LibConcat2
import proofs.«122586_j43782896615992_2_alg».proof.Proof.LibSumSplit

noncomputable section

open scoped BigOperators

namespace Cert.RefValue

open Idealize.ShloMosaic Idealize.ShloMosaic.ValueIdx Cert.ReferenceIdeal Cert.ReferenceIdeal.Read Cert.Lib

/-! ## Where the products and the broadcasts read their operands

Entry `(r, c)` of a matrix product reads row `r` of the left factor and column `c` of the right one, at the summation
index `k`; a bias broadcast to every row reads the bias at the column. -/

theorem lidx19 (e : Fin 320000) (j : Fin 512) (k : Fin 528) : lidx_main_v19 (ix2 e j) k = ix2 e k := by
  funext a; match a with | ⟨0, _⟩ => rfl | ⟨1, _⟩ => rfl
theorem ridx19 (e : Fin 320000) (j : Fin 512) (k : Fin 528) : ridx_main_v19 (ix2 e j) k = ix2 k j := by
  funext a; match a with | ⟨0, _⟩ => rfl | ⟨1, _⟩ => rfl
theorem lidx24 (e : Fin 320000) (q : Fin 256) (k : Fin 512) : lidx_main_v24 (ix2 e q) k = ix2 e k := by
  funext a; match a with | ⟨0, _⟩ => rfl | ⟨1, _⟩ => rfl
theorem ridx24 (e : Fin 320000) (q : Fin 256) (k : Fin 512) : ridx_main_v24 (ix2 e q) k = ix2 k q := by
  funext a; match a with | ⟨0, _⟩ => rfl | ⟨1, _⟩ => rfl
theorem lidx32 (n : Fin 10000) (j : Fin 512) (k : Fin 512) : lidx_main_v32 (ix2 n j) k = ix2 n k := by
  funext a; match a with | ⟨0, _⟩ => rfl | ⟨1, _⟩ => rfl
theorem ridx32 (n : Fin 10000) (j : Fin 512) (k : Fin 512) : ridx_main_v32 (ix2 n j) k = ix2 k j := by
  funext a; match a with | ⟨0, _⟩ => rfl | ⟨1, _⟩ => rfl
theorem lidx37 (n : Fin 10000) (q : Fin 256) (k : Fin 512) : lidx_main_v37 (ix2 n q) k = ix2 n k := by
  funext a; match a with | ⟨0, _⟩ => rfl | ⟨1, _⟩ => rfl
theorem ridx37 (n : Fin 10000) (q : Fin 256) (k : Fin 512) : ridx_main_v37 (ix2 n q) k = ix2 k q := by
  funext a; match a with | ⟨0, _⟩ => rfl | ⟨1, _⟩ => rfl

variable (x0 : (⟨S10000x256, .f32⟩ : BufTy).Contents (Elt Ideal))
  (x1 : (⟨S2x320000, .i32⟩ : BufTy).Contents (Elt Ideal))
  (x2 : (⟨S320000x16, .f32⟩ : BufTy).Contents (Elt Ideal))
  (x3 : (⟨S528x512, .f32⟩ : BufTy).Contents (Elt Ideal))
  (x4 : (⟨S512, .f32⟩ : BufTy).Contents (Elt Ideal))
  (x5 : (⟨S512x256, .f32⟩ : BufTy).Contents (Elt Ideal))
  (x6 : (⟨S256, .f32⟩ : BufTy).Contents (Elt Ideal))
  (x7 : (⟨S512x512, .f32⟩ : BufTy).Contents (Elt Ideal))
  (x8 : (⟨S512, .f32⟩ : BufTy).Contents (Elt Ideal))
  (x9 : (⟨S512x256, .f32⟩ : BufTy).Contents (Elt Ideal))
  (x10 : (⟨S256, .f32⟩ : BufTy).Contents (Elt Ideal))

/-- The first bias, broadcast over the edges, at column `j`. -/
theorem bias21 (e : Fin 320000) (j : Fin 512) : val_main_v21 (F := Ideal) x4 (ix2 e j) = x4 (ix1 j) := by
  rw [val_main_v21_apply, val_main_v20_apply]
  exact congrArg x4 (by funext a; match a with | ⟨0, _⟩ => rfl)

/-- The second bias, broadcast over the edges, at column `q`. -/
theorem bias26 (e : Fin 320000) (q : Fin 256) : val_main_v26 (F := Ideal) x6 (ix2 e q) = x6 (ix1 q) := by
  rw [val_main_v26_apply, val_main_v25_apply]
  exact congrArg x6 (by funext a; match a with | ⟨0, _⟩ => rfl)

/-- The update's first bias, broadcast over the nodes, at column `j`. -/
theorem bias34 (n : Fin 10000) (j : Fin 512) : val_main_v34 (F := Ideal) x8 (ix2 n j) = x8 (ix1 j) := by
  rw [val_main_v34_apply, val_main_v33_apply]
  exact congrArg x8 (by funext a; match a with | ⟨0, _⟩ => rfl)

/-- The update's second bias, broadcast over the nodes, at column `q`. -/
theorem bias39 (n : Fin 10000) (q : Fin 256) : val_main_v39 (F := Ideal) x10 (ix2 n q) = x10 (ix1 q) := by
  rw [val_main_v39_apply, val_main_v38_apply]
  exact congrArg x10 (by funext a; match a with | ⟨0, _⟩ => rfl)

/-- The array the first clipping compares with is 0 everywhere. -/
theorem clip0_zero (i : S320000x512.Idx) : val_main_call0_v0 (F := Ideal) i = (0 : EReal) := by
  rw [val_main_call0_v0_apply, val_main_call0_cst_apply]
  exact Ideal.ofBits_zero_f32

/-- The array the second clipping compares with is 0 everywhere. -/
theorem clip1_zero (i : S10000x512.Idx) : val_main_call1_v0 (F := Ideal) i = (0 : EReal) := by
  rw [val_main_call1_v0_apply, val_main_call1_cst_apply]
  exact Ideal.ofBits_zero_f32

/-! ## The messages -/

/-- Columns 0–255 of the 528-wide row read the target node's gathered row. -/
theorem v18_first (e : Fin 320000) (k : Fin 256) :
    val_main_v18 (F := Ideal) x0 x1 x2 (ix2 e (⟨k.val, by omega⟩ : Fin 528)) = val_main_v10 (F := Ideal) x0 x1 (ix2 e k) := by
  unfold val_main_v18
  generalize val_main_v10 (F := Ideal) x0 x1 = NI
  generalize val_main_v17 (F := Ideal) x0 x1 = NJ
  exact concat3_apply_first NI NJ x2 _ e _ k rfl

/-- Columns 256–511 read the source node's gathered row. -/
theorem v18_second (e : Fin 320000) (k : Fin 256) :
    val_main_v18 (F := Ideal) x0 x1 x2 (ix2 e (⟨256 + k.val, by omega⟩ : Fin 528)) = val_main_v17 (F := Ideal) x0 x1 (ix2 e k) := by
  unfold val_main_v18
  generalize val_main_v10 (F := Ideal) x0 x1 = NI
  generalize val_main_v17 (F := Ideal) x0 x1 = NJ
  exact concat3_apply_second NI NJ x2 _ e _ k rfl

/-- Columns 512–527 read the edge's own features. -/
theorem v18_third (e : Fin 320000) (k : Fin 16) :
    val_main_v18 (F := Ideal) x0 x1 x2 (ix2 e (⟨512 + k.val, by omega⟩ : Fin 528)) = x2 (ix2 e k) := by
  unfold val_main_v18
  generalize val_main_v10 (F := Ideal) x0 x1 = NI
  generalize val_main_v17 (F := Ideal) x0 x1 = NJ
  exact concat3_apply_third NI NJ x2 _ e _ k rfl

/-- The first product: a sum over 528 columns is the three pieces' sums against the three ranges of the matrix's rows. -/
theorem v19_eq (e : Fin 320000) (j : Fin 512) :
    val_main_v19 (F := Ideal) x0 x1 x2 x3 (ix2 e j)
      = ((∑ k : Fin 256, val_main_v10 (F := Ideal) x0 x1 (ix2 e k) * x3 (ix2 (⟨k.val, by omega⟩ : Fin 528) j))
          + (∑ k : Fin 256, val_main_v17 (F := Ideal) x0 x1 (ix2 e k) * x3 (ix2 (⟨256 + k.val, by omega⟩ : Fin 528) j)))
        + (∑ k : Fin 16, x2 (ix2 e k) * x3 (ix2 (⟨512 + k.val, by omega⟩ : Fin 528) j)) := by
  rw [val_main_v19_apply, sum_fin_split3 256 256 16 528 (by norm_num) 512 (by norm_num)]
  refine congrArg₂ (· + ·) (congrArg₂ (· + ·) (Finset.sum_congr rfl fun k _ => ?_) (Finset.sum_congr rfl fun k _ => ?_))
    (Finset.sum_congr rfl fun k _ => ?_)
  · rw [lidx19, ridx19, v18_first]
  · rw [lidx19, ridx19, v18_second]
  · rw [lidx19, ridx19, v18_third]

/-- The clipped first layer is the specification's hidden row. -/
theorem v23_eq (e : Fin 320000) (j : Fin 512) :
    val_main_v23 (F := Ideal) x0 x1 x2 x3 x4 (ix2 e j)
      = Spec.hidden3 (Spec.row (val_main_v10 (F := Ideal) x0 x1) e) (Spec.row (val_main_v17 (F := Ideal) x0 x1) e) (Spec.row x2 e) x3 (Spec.vec x4) j := by
  rw [val_main_v23_apply, val_main_v22_apply, v19_eq, bias21, clip0_zero]
  rfl

/-- Every edge's message is the specification's, from the gathered rows and the edge's features. -/
theorem messages_eq :
    val_main_v27 (F := Ideal) x0 x1 x2 x3 x4 x5 x6
      = Spec.messages (val_main_v10 (F := Ideal) x0 x1) (val_main_v17 (F := Ideal) x0 x1) x2 x3 (Spec.vec x4) x5 (Spec.vec x6) := by
  funext i
  obtain ⟨e, q, rfl⟩ : ∃ (e : Fin 320000) (q : Fin 256), i = ix2 e q := ⟨i 0, i 1, eq_ix2 i⟩
  rw [Spec.messages_apply, val_main_v27_apply, val_main_v24_apply, bias26]
  unfold Spec.message
  change (∑ k : Fin 512, _) + _ = (∑ j : Fin 512, _) + _
  refine congrArg₂ (· + ·) (Finset.sum_congr rfl fun j _ => ?_) rfl
  rw [lidx24, ridx24, v23_eq]

/-! ## The updated rows -/

/-- Columns 0–255 of the 512-wide row read the node's own features. -/
theorem v31_first (n : Fin 10000) (k : Fin 256) :
    val_main_v31 (F := Ideal) x0 x1 x2 x3 x4 x5 x6 (ix2 n (⟨k.val, by omega⟩ : Fin 512)) = x0 (ix2 n k) := by
  unfold val_main_v31
  generalize val_main_v30 (F := Ideal) x0 x1 x2 x3 x4 x5 x6 = G
  exact concat2_apply_first x0 G _ n _ k rfl

/-- Columns 256–511 read the node's aggregated messages. -/
theorem v31_second (n : Fin 10000) (k : Fin 256) :
    val_main_v31 (F := Ideal) x0 x1 x2 x3 x4 x5 x6 (ix2 n (⟨256 + k.val, by omega⟩ : Fin 512)) = val_main_v30 (F := Ideal) x0 x1 x2 x3 x4 x5 x6 (ix2 n k) := by
  unfold val_main_v31
  generalize val_main_v30 (F := Ideal) x0 x1 x2 x3 x4 x5 x6 = G
  exact concat2_apply_second x0 G _ n _ k rfl

/-- The update's first product: a sum over 512 columns is the two pieces' sums against the two halves of the matrix's rows. -/
theorem v32_eq (n : Fin 10000) (j : Fin 512) :
    val_main_v32 (F := Ideal) x0 x1 x2 x3 x4 x5 x6 x7 (ix2 n j)
      = (∑ k : Fin 256, x0 (ix2 n k) * x7 (ix2 (⟨k.val, by omega⟩ : Fin 512) j))
        + (∑ k : Fin 256, val_main_v30 (F := Ideal) x0 x1 x2 x3 x4 x5 x6 (ix2 n k) * x7 (ix2 (⟨256 + k.val, by omega⟩ : Fin 512) j)) := by
  rw [val_main_v32_apply, sum_fin_split2 256 256 512 (by norm_num)]
  refine congrArg₂ (· + ·) (Finset.sum_congr rfl fun k _ => ?_) (Finset.sum_congr rfl fun k _ => ?_)
  · rw [lidx32, ridx32, v31_first]
  · rw [lidx32, ridx32, v31_second]

/-- The clipped first layer of the update is the specification's hidden row. -/
theorem v36_eq (n : Fin 10000) (j : Fin 512) :
    val_main_v36 (F := Ideal) x0 x1 x2 x3 x4 x5 x6 x7 x8 (ix2 n j)
      = Spec.hidden2 (Spec.row x0 n) (Spec.row (val_main_v30 (F := Ideal) x0 x1 x2 x3 x4 x5 x6) n) x7 (Spec.vec x8) j := by
  rw [val_main_v36_apply, val_main_v35_apply, v32_eq, bias34, clip1_zero]
  rfl

/-- Every node's result row is the specification's update of its row by its aggregated messages. -/
theorem result_eq :
    val_main_v41 (F := Ideal) x0 x1 x2 x3 x4 x5 x6 x7 x8 x9 x10
      = Spec.updated x0 (val_main_v30 (F := Ideal) x0 x1 x2 x3 x4 x5 x6) x7 (Spec.vec x8) x9 (Spec.vec x10) := by
  funext i
  obtain ⟨n, q, rfl⟩ : ∃ (n : Fin 10000) (q : Fin 256), i = ix2 n q := ⟨i 0, i 1, eq_ix2 i⟩
  rw [Spec.updated_apply, val_main_v41_apply, val_main_v40_apply, val_main_v37_apply, bias39]
  unfold Spec.update
  change _ + ((∑ k : Fin 512, _) + _) = _ + ((∑ j : Fin 512, _) + _)
  refine congrArg₂ (· + ·) rfl (congrArg₂ (· + ·) (Finset.sum_congr rfl fun j _ => ?_) rfl)
  rw [lidx37, ridx37, v36_eq]

end Cert.RefValue

end
-- ==== Proof.LibRealEntries.lean ====
/-
  Entries of a float array that passes the test `all(|x| < +∞)` are real numbers.

  Floats are read here as extended reals. The test takes the absolute value `max x (-x)` of every entry,
  compares it (strictly) with the word `0x7F800000`, whose value is `+∞`, and folds the resulting bits with
  `and` into one scalar bit. If that bit is 1 then every comparison bit is 1, so `max x (-x) < +∞` at every
  entry; an extended real with that property is neither `+∞` nor `-∞` (at either infinity the maximum is `+∞`),
  hence it is the image of a real number.
-/
import Idealize.ShloMosaic.Lib.ReduceAll
import Idealize.ShloMosaic.Lib.ValueIdx
import Idealize.ShloMosaic.PureOps.Ideal.Laws

namespace Cert.LibRealEntries

open Idealize.ShloMosaic

/-- The rank-0 shape has exactly one index: there is no axis to choose a coordinate on. -/
instance subsingleton_scalar_idx : Subsingleton (⟨0, ![]⟩ : Shape).Idx :=
  ⟨fun a b => funext fun d => d.elim0⟩

/-- The 32-bit word `0x7F800000` (sign 0, exponent all ones, mantissa 0) denotes `+∞`. -/
theorem ofBits_pos_inf : Ideal.ofBits .f32 0x7F800000#32 = (⊤ : EReal) := by
  simp [Ideal.ofBits, Ideal.ieee]

/-- An extended real whose absolute value `max x (-x)` is strictly below `+∞` is a real number:
    at `x = +∞` the maximum is `x` itself, at `x = -∞` it is `-x = +∞`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry: if the comparison bit of `|x| < +∞` is 1, then `x` is a real number. -/
theorem exists_real_of_cmp_bit (x : Ideal .f32)
    (h : FloatOps.cmpf .olt (FloatOps.hostAbsf x) (FloatOps.ofBits (F := Ideal) .f32 0x7F800000#32) = 1#1) :
    ∃ r : ℝ, (x : EReal) = (r : EReal) := by
  change Ideal.cmp .olt (max (x : EReal) (-(x : EReal))) (Ideal.ofBits .f32 0x7F800000#32) = 1#1 at h
  rw [ofBits_pos_inf] at h
  unfold Ideal.cmp at h
  refine exists_real_of_abs_lt_top x ?_
  by_contra hn
  simp [hn] at h

/-- A whole array: if the `and`-fold over all axes of the bits `|x i| < +∞` is 1, every entry of `x` is real. -/
theorem exists_real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1)
    (i : s.Idx) : ∃ r : ℝ, x i = (r : EReal) :=
  exists_real_of_cmp_bit (x i) (Host.reduce_andi_all _ _ hr hu _ e i)

end Cert.LibRealEntries
-- ==== Proof.FiniteInputs.lean ====
/-
  Finiteness of the float inputs, read off the precondition.

  The precondition evaluates, on each device, a scalar bit from the eleven arguments and asks that it be 1. For each of
  the ten float arguments (argument 1 holds integers and is not examined) it forms the bit "all entries satisfy
  |x| < +∞" — the absolute value of every entry compared strictly with +∞, the comparison bits folded by `and` over
  every axis — and then folds these ten bits by `and` again, from the left:
  ((((((((b0 ∧ b2) ∧ b3) ∧ b4) ∧ b5) ∧ b6) ∧ b7) ∧ b8) ∧ b9) ∧ b10.
  An `and` of two one-bit words is 1 exactly when both are, so the total being 1 gives each `bK = 1`; and `bK = 1`
  says every entry of argument K has absolute value below +∞, that is, is neither infinity: floats being read as
  extended reals, such an entry is (the image of) a real number.
-/
import proofs.«122586_j43782896615992_2_alg».proof.Defs
import proofs.«122586_j43782896615992_2_alg».proof.Proof.Gen.Pre_finite_inputs
import proofs.«122586_j43782896615992_2_alg».proof.Proof.LibRealEntries
import Idealize.ShloMosaic.Lib.ReduceAll
import Idealize.ShloMosaic.Lib.ValueIdx
import Idealize.ShloMosaic.PureOps.Ideal.Laws

namespace Cert.FiniteInputs

open Idealize.ShloMosaic Idealize.SL.Sem
open Cert.Pre_finite_inputs (S10000x256 S2x320000 S320000x16 S528x512 S512 S512x256 S256 S512x512)

/-- The ten bits split: if the precondition's function evaluates to the all-ones scalar on some arguments, then every
    entry of every float argument is a real number. The scalar is read at its one index; the nine nested `and`s give
    the ten per-argument bits; each of those is an `and`-fold over all axes of the entrywise bits `|x| < +∞`. -/
theorem real_entries [Cert.Pre_finite_inputs.Facts]
    (a0 : FVec Ideal S10000x256 .f32) (a1 : IVec S2x320000 32) (a2 : FVec Ideal S320000x16 .f32)
    (a3 : FVec Ideal S528x512 .f32) (a4 : FVec Ideal S512 .f32) (a5 : FVec Ideal S512x256 .f32)
    (a6 : FVec Ideal S256 .f32) (a7 : FVec Ideal S512x512 .f32) (a8 : FVec Ideal S512 .f32)
    (a9 : FVec Ideal S512x256 .f32) (a10 : FVec Ideal S256 .f32)
    (h : Cert.Pre_finite_inputs.fn (F := Ideal) a0 a1 a2 a3 a4 a5 a6 a7 a8 a9 a10 = fun _ => 1#1) :
    (∀ i, ∃ r : ℝ, a0 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) := by
  have h0 := congrFun h ValueIdx.ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨⟨⟨e0, e2⟩, e3⟩, e4⟩, e5⟩, e6⟩, e7⟩, e8⟩, e9⟩, e10⟩ := h0
  exact ⟨LibRealEntries.exists_real_of_all a0 _ _ _ e0, LibRealEntries.exists_real_of_all a2 _ _ _ e2,
    LibRealEntries.exists_real_of_all a3 _ _ _ e3, LibRealEntries.exists_real_of_all a4 _ _ _ e4,
    LibRealEntries.exists_real_of_all a5 _ _ _ e5, LibRealEntries.exists_real_of_all a6 _ _ _ e6,
    LibRealEntries.exists_real_of_all a7 _ _ _ e7, LibRealEntries.exists_real_of_all a8 _ _ _ e8,
    LibRealEntries.exists_real_of_all a9 _ _ _ e9, LibRealEntries.exists_real_of_all a10 _ _ _ e10⟩

/-- Every entry of float argument 0 is a real number. -/
theorem real_arg0
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S10000x256.Idx) :
    ∃ r : ℝ, (m ((c.tc : Thread Cert.KernelIdeal.nD Cert.KernelIdeal.τ).loc Cert.KernelIdeal.main_arg0) : Cert.KernelIdeal.S10000x256.Idx → EReal) i = (r : EReal) :=
  (real_entries _ _ _ _ _ _ _ _ _ _ _ (h c)).1 i

/-- Every entry of float argument 2 is a real number. -/
theorem real_arg2
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S320000x16.Idx) :
    ∃ r : ℝ, (m ((c.tc : Thread Cert.KernelIdeal.nD Cert.KernelIdeal.τ).loc Cert.KernelIdeal.main_arg2) : Cert.KernelIdeal.S320000x16.Idx → EReal) i = (r : EReal) :=
  (real_entries _ _ _ _ _ _ _ _ _ _ _ (h c)).2.1 i

/-- Every entry of float argument 3 is a real number. -/
theorem real_arg3
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S528x512.Idx) :
    ∃ r : ℝ, (m ((c.tc : Thread Cert.KernelIdeal.nD Cert.KernelIdeal.τ).loc Cert.KernelIdeal.main_arg3) : Cert.KernelIdeal.S528x512.Idx → EReal) i = (r : EReal) :=
  (real_entries _ _ _ _ _ _ _ _ _ _ _ (h c)).2.2.1 i

/-- Every entry of float argument 4 is a real number. -/
theorem real_arg4
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S512.Idx) :
    ∃ r : ℝ, (m ((c.tc : Thread Cert.KernelIdeal.nD Cert.KernelIdeal.τ).loc Cert.KernelIdeal.main_arg4) : Cert.KernelIdeal.S512.Idx → EReal) i = (r : EReal) :=
  (real_entries _ _ _ _ _ _ _ _ _ _ _ (h c)).2.2.2.1 i

/-- Every entry of float argument 5 is a real number. -/
theorem real_arg5
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S512x256.Idx) :
    ∃ r : ℝ, (m ((c.tc : Thread Cert.KernelIdeal.nD Cert.KernelIdeal.τ).loc Cert.KernelIdeal.main_arg5) : Cert.KernelIdeal.S512x256.Idx → EReal) i = (r : EReal) :=
  (real_entries _ _ _ _ _ _ _ _ _ _ _ (h c)).2.2.2.2.1 i

/-- Every entry of float argument 6 is a real number. -/
theorem real_arg6
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S256.Idx) :
    ∃ r : ℝ, (m ((c.tc : Thread Cert.KernelIdeal.nD Cert.KernelIdeal.τ).loc Cert.KernelIdeal.main_arg6) : Cert.KernelIdeal.S256.Idx → EReal) i = (r : EReal) :=
  (real_entries _ _ _ _ _ _ _ _ _ _ _ (h c)).2.2.2.2.2.1 i

/-- Every entry of float argument 7 is a real number. -/
theorem real_arg7
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S512x512.Idx) :
    ∃ r : ℝ, (m ((c.tc : Thread Cert.KernelIdeal.nD Cert.KernelIdeal.τ).loc Cert.KernelIdeal.main_arg7) : Cert.KernelIdeal.S512x512.Idx → EReal) i = (r : EReal) :=
  (real_entries _ _ _ _ _ _ _ _ _ _ _ (h c)).2.2.2.2.2.2.1 i

/-- Every entry of float argument 8 is a real number. -/
theorem real_arg8
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S512.Idx) :
    ∃ r : ℝ, (m ((c.tc : Thread Cert.KernelIdeal.nD Cert.KernelIdeal.τ).loc Cert.KernelIdeal.main_arg8) : Cert.KernelIdeal.S512.Idx → EReal) i = (r : EReal) :=
  (real_entries _ _ _ _ _ _ _ _ _ _ _ (h c)).2.2.2.2.2.2.2.1 i

/-- Every entry of float argument 9 is a real number. -/
theorem real_arg9
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S512x256.Idx) :
    ∃ r : ℝ, (m ((c.tc : Thread Cert.KernelIdeal.nD Cert.KernelIdeal.τ).loc Cert.KernelIdeal.main_arg9) : Cert.KernelIdeal.S512x256.Idx → EReal) i = (r : EReal) :=
  (real_entries _ _ _ _ _ _ _ _ _ _ _ (h c)).2.2.2.2.2.2.2.2.1 i

/-- Every entry of float argument 10 is a real number. -/
theorem real_arg10
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S256.Idx) :
    ∃ r : ℝ, (m ((c.tc : Thread Cert.KernelIdeal.nD Cert.KernelIdeal.τ).loc Cert.KernelIdeal.main_arg10) : Cert.KernelIdeal.S256.Idx → EReal) i = (r : EReal) :=
  (real_entries _ _ _ _ _ _ _ _ _ _ _ (h c)).2.2.2.2.2.2.2.2.2 i

end Cert.FiniteInputs
-- ==== Proof.KernelValue.lean ====
/-
  The idealized kernel's result is the reference's.

  Under the precondition every float argument is real-valued. The first launch then finds real-valued operands — gathered
  rows of the node features, the edge features, the weights, the bias — so its result array ends holding every edge's
  message, which is the reference's message array. The messages are real-valued, hence so is their scatter-added
  aggregate, and the second launch's result array ends holding every node's update of its features and aggregate:
  the reference's result, as one function of the eleven arguments.
-/
import proofs.«122586_j43782896615992_2_alg».proof.Proof.Glue
import proofs.«122586_j43782896615992_2_alg».proof.Proof.Region0
import proofs.«122586_j43782896615992_2_alg».proof.Proof.Region1
import proofs.«122586_j43782896615992_2_alg».proof.Proof.RefValue
import proofs.«122586_j43782896615992_2_alg».proof.Proof.FiniteInputs

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.Lib Cert.ReferenceIdeal.Read

variable (m : (ℓ : Loc nD τ sig) → Buf (Elt Ideal) ℓ) (ρ : Dev nD → PrngReg)
variable (hpre : Cert.Pre_KernelIdeal (hPre_finite_inputs := Cert.Pre_finite_inputs.Gen.facts) m) (c : Dev nD)

include hpre in
/-- The gathered target rows are real-valued. -/
theorem v10_real : RealValued (val_main_v10 (F := Ideal) (m ((c : Thread nD τ).loc main_arg0)) (m ((c : Thread nD τ).loc main_arg1))) := by
  unfold val_main_v10
  exact Glue.realValued_gather _ _ _ (fun i => Cert.FiniteInputs.real_arg0 m hpre c i)

include hpre in
/-- The gathered source rows are real-valued. -/
theorem v17_real : RealValued (val_main_v17 (F := Ideal) (m ((c : Thread nD τ).loc main_arg0)) (m ((c : Thread nD τ).loc main_arg1))) := by
  unfold val_main_v17
  exact Glue.realValued_gather _ _ _ (fun i => Cert.FiniteInputs.real_arg0 m hpre c i)

include hpre in
/-- AFTER THE FIRST LAUNCH its result array holds the reference's messages. -/
theorem msgs :
    (W2 m ρ c (Proc.devRef .tc main_v20) : S320000x256.Idx → EReal)
      = val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W2_arr m ρ c 7).trans ?_
  refine (Region0.final (V1 m ρ) c ?_ ?_ ?_ ?_ ?_ ?_).trans ?_
  · rw [Glue.V1_v10]; exact v10_real m hpre c
  · rw [Glue.V1_v17]; exact v17_real m hpre c
  · rw [Glue.V1_arg2]; exact fun i => Cert.FiniteInputs.real_arg2 m hpre c i
  · rw [Glue.V1_arg3]; exact fun i => Cert.FiniteInputs.real_arg3 m hpre c i
  · rw [Glue.V1_v18]; exact Glue.realValued_shapeCast _ _ (fun i => Cert.FiniteInputs.real_arg4 m hpre c i)
  · rw [Glue.V1_arg5]; exact fun i => Cert.FiniteInputs.real_arg5 m hpre c i
  · unfold Region0.G
    rw [Glue.V1_v10, Glue.V1_v17, Glue.V1_arg2, Glue.V1_arg3, Glue.V1_v18, Glue.V1_arg5, Glue.V1_v19, Glue.row0_cast, Glue.row0_cast]
    exact (Cert.RefValue.messages_eq _ _ _ _ _ _ _).symm

include hpre in
/-- The reference's messages are real-valued. -/
theorem v27_real :
    RealValued (val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) := by
  rw [Cert.RefValue.messages_eq]
  exact Spec.messages_real (v10_real m hpre c) (v17_real m hpre c) (fun i => Cert.FiniteInputs.real_arg2 m hpre c i)
    (fun i => Cert.FiniteInputs.real_arg3 m hpre c i) (fun q => Cert.FiniteInputs.real_arg4 m hpre c _)
    (fun i => Cert.FiniteInputs.real_arg5 m hpre c i) (fun q => Cert.FiniteInputs.real_arg6 m hpre c _)

include hpre in
/-- AFTER THE SECOND LAUNCH the result array holds the reference's result, as a function of the arguments. -/
theorem result :
    (W4 m ρ c (Proc.devRef .tc main_v26) : S10000x256.Idx → EReal)
      = val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  refine (W4_arr m ρ c 6).trans ?_
  have h23 := Glue.V3_v23 m ρ c _ (msgs m ρ hpre c)
  refine (Region1.final (V3 m ρ) c ?_ ?_ ?_ ?_ ?_).trans ?_
  · rw [Glue.V3_arg0]; exact fun i => Cert.FiniteInputs.real_arg0 m hpre c i
  · rw [h23]
    refine Glue.realValued_scatterAdd _ _ _ _ (fun i => ?_) (v27_real m hpre c)
    rw [val_main_v28_apply, val_main_cst_apply]
    exact ⟨0, Ideal.ofBits_zero_f32⟩
  · rw [Glue.V3_arg7]; exact fun i => Cert.FiniteInputs.real_arg7 m hpre c i
  · rw [Glue.V3_v24]; exact Glue.realValued_shapeCast _ _ (fun i => Cert.FiniteInputs.real_arg8 m hpre c i)
  · rw [Glue.V3_arg9]; exact fun i => Cert.FiniteInputs.real_arg9 m hpre c i
  · unfold Region1.G
    rw [Glue.V3_arg0, h23, Glue.V3_arg7, Glue.V3_v24, Glue.V3_arg9, Glue.V3_v25, Glue.row0_cast, Glue.row0_cast,
      Cert.RefValue.result_eq]
    rfl

end Cert.KernelIdeal.Value

end
-- ==== Proof.lean ====
/-
  A message-passing layer computed by two tiled kernels agrees, at exact arithmetic, with its plain reference.

  The kernel computes each edge's message and each node's update with matrix products done in three passes over operands
  split as `x = hi + lo`, `hi` the operand after a change of float format and `lo = x - hi`; the reference computes the
  same perceptrons with one product each, on the side-by-side concatenation of the feature rows. At exact arithmetic a
  change of format is the identity, so `lo = x - x`, which is zero exactly when `x` is a real number: under the
  precondition that every float argument is finite, every operand of every product is real-valued (arguments, gathered
  rows, the hidden layers, the scatter-added messages), each three-pass product is the product, and a product with a
  concatenation is the sum of the products with its pieces. Both programs gather and scatter-add by the same host
  operations on the same indices, so their results are one function of the eleven arguments.

  The three frames are the generated ones (the reference's is its run with the result dropped); each change of format the
  idealization removed is the identity there.
-/
import proofs.«122586_j43782896615992_2_alg».proof.Defs
import proofs.«122586_j43782896615992_2_alg».proof.Proof.Gen.Kernel
import proofs.«122586_j43782896615992_2_alg».proof.Proof.Gen.Kernel.Skeleton
import proofs.«122586_j43782896615992_2_alg».proof.Proof.Gen.Kernel.Launch
import proofs.«122586_j43782896615992_2_alg».proof.Proof.Gen.Kernel.Points
import proofs.«122586_j43782896615992_2_alg».proof.Proof.Gen.Kernel.Frame
import proofs.«122586_j43782896615992_2_alg».proof.Proof.Gen.KernelIdeal
import proofs.«122586_j43782896615992_2_alg».proof.Proof.Gen.KernelIdeal.Skeleton
import proofs.«122586_j43782896615992_2_alg».proof.Proof.Gen.KernelIdeal.Launch
import proofs.«122586_j43782896615992_2_alg».proof.Proof.Gen.KernelIdeal.Points
import proofs.«122586_j43782896615992_2_alg».proof.Proof.Gen.KernelIdeal.Frame
import proofs.«122586_j43782896615992_2_alg».proof.Proof.Gen.ReferenceIdeal
import proofs.«122586_j43782896615992_2_alg».proof.Proof.Gen.Pre_finite_inputs
import proofs.«122586_j43782896615992_2_alg».proof.Proof.Gen.ReferenceIdeal.Run
import proofs.«122586_j43782896615992_2_alg».proof.Proof.Gen.ReferenceIdeal.Read
import proofs.«122586_j43782896615992_2_alg».proof.Proof.RunNamed
import proofs.«122586_j43782896615992_2_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Each round trip through the narrower format that the idealization removed is the identity on extended reals. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

/-- From memories agreeing on the arguments both programs end with the reference's result as a function of the
    arguments: the kernel by its two launches read back, the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v41 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ hpre c), (h c).2⟩)
      (Cert.KernelIdeal.Named.run_named m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.ReferenceIdeal.Read.val_main_v41_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
